-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : IVec S2x600000 32) (main_arg1 : FVec F S100000x128 .f32) (main_arg2 : FVec F S20000x128 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg2
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S2x600000 : Shape := ⟨2, ![2, 600000]⟩
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S20000 : Shape := ⟨1, ![20000]⟩
abbrev S5000x128 : Shape := ⟨2, ![5000, 128]⟩
abbrev S20000x1 : Shape := ⟨2, ![20000, 1]⟩
abbrev S600000x128 : Shape := ⟨2, ![600000, 128]⟩
abbrev S100000x1 : Shape := ⟨2, ![100000, 1]⟩
abbrev S1x128 : Shape := ⟨2, ![1, 128]⟩

abbrev nBuf : Space → Nat
  | .hbm => 211
  | .vmem => 54
  | .smem => 0
  | _ => 0

abbrev hbmTy0_0 (i : Nat) : BufTy := match i % 128 with
  | 0 => ⟨S2x600000, .i32⟩
  | 1 => ⟨S100000x128, .f32⟩
  | 2 => ⟨S20000x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S_, .f32⟩
  | 20 => ⟨S600000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S20000, .f32⟩
  | 27 => ⟨S600000x1, .i32⟩
  | 28 => ⟨S20000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .f32⟩
  | 40 => ⟨S20000, .f32⟩
  | 41 => ⟨S20000, .i1⟩
  | 42 => ⟨S_, .f32⟩
  | 43 => ⟨S20000, .f32⟩
  | 44 => ⟨S20000, .f32⟩
  | 45 => ⟨S_, .f32⟩
  | 46 => ⟨S_, .f32⟩
  | 47 => ⟨S20000, .f32⟩
  | 48 => ⟨S20000, .f32⟩
  | 49 => ⟨S100000x128, .f32⟩
  | 50 => ⟨S20000x1, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .f32⟩
  | 61 => ⟨S20000x128, .f32⟩
  | 62 => ⟨S600000x1, .i32⟩
  | 63 => ⟨S20000x128, .f32⟩
  | 64 => ⟨S20000x128, .f32⟩
  | 65 => ⟨S20000x128, .f32⟩
  | 66 => ⟨S100000x1, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S_, .f32⟩
  | 77 => ⟨S100000x128, .f32⟩
  | 78 => ⟨S600000x1, .i32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S100000x128, .f32⟩
  | 93 => ⟨S_, .f32⟩
  | 94 => ⟨S128, .f32⟩
  | 95 => ⟨S_, .f32⟩
  | 96 => ⟨S128, .f32⟩
  | 97 => ⟨S128, .f32⟩
  | 98 => ⟨S1x128, .f32⟩
  | 99 => ⟨S1x128, .f32⟩
  | 100 => ⟨S1x128, .f32⟩
  | 101 => ⟨S1x128, .f32⟩
  | 102 => ⟨S100000x128, .f32⟩
  | 103 => ⟨S100000x128, .f32⟩
  | 104 => ⟨S20000x1, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S_, .f32⟩
  | 115 => ⟨S20000x128, .f32⟩
  | 116 => ⟨S600000x1, .i32⟩
  | 117 => ⟨S20000x128, .f32⟩
  | 118 => ⟨S20000x128, .f32⟩
  | 119 => ⟨S20000x128, .f32⟩
  | 120 => ⟨S100000x1, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S2x600000, .i32⟩

abbrev hbmTy0_1 (i : Nat) : BufTy := match i % 128 with
  | 0 => ⟨S600000x1, .i32⟩
  | 1 => ⟨S600000x128, .f32⟩
  | 2 => ⟨S_, .f32⟩
  | 3 => ⟨S100000x128, .f32⟩
  | 4 => ⟨S600000x1, .i32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S1x128, .f32⟩
  | 26 => ⟨S1x128, .f32⟩
  | 27 => ⟨S1x128, .f32⟩
  | 28 => ⟨S100000x128, .f32⟩
  | 29 => ⟨S100000x128, .f32⟩
  | 30 => ⟨S20000x1, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S20000x128, .f32⟩
  | 42 => ⟨S600000x1, .i32⟩
  | 43 => ⟨S20000x128, .f32⟩
  | 44 => ⟨S20000x128, .f32⟩
  | 45 => ⟨S20000x128, .f32⟩
  | 46 => ⟨S100000x1, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S_, .f32⟩
  | 57 => ⟨S100000x128, .f32⟩
  | 58 => ⟨S600000x1, .i32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S1x128, .f32⟩
  | 80 => ⟨S1x128, .f32⟩
  | 81 => ⟨S1x128, .f32⟩
  | 82 => ⟨S100000x128, .f32⟩
  | _ => ⟨S2x600000, .i32⟩

abbrev hbmTy (i : Nat) : BufTy := match i / 128 with
  | 0 => hbmTy0_0 i
  | 1 => hbmTy0_1 i
  | _ => ⟨S2x600000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_cst_5 : Ref sig .tc := ⟨.hbm, 39, rfl⟩
abbrev main_v16 : Ref sig .tc := ⟨.hbm, 40, rfl⟩
abbrev main_v17 : Ref sig .tc := ⟨.hbm, 41, rfl⟩
abbrev main_cst_6 : Ref sig .tc := ⟨.hbm, 42, rfl⟩
abbrev main_v18 : Ref sig .tc := ⟨.hbm, 43, rfl⟩
abbrev main_v19 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c : Ref sig .tc := ⟨.hbm, 51, rfl⟩
abbrev main_v23 : Ref sig .tc := ⟨.hbm, 52, rfl⟩
abbrev main_v24 : Ref sig .tc := ⟨.hbm, 53, rfl⟩
abbrev main_c_8 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_9 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_10 : Ref sig .tc := ⟨.hbm, 67, rfl⟩
abbrev main_v36 : Ref sig .tc := ⟨.hbm, 68, rfl⟩
abbrev main_v37 : Ref sig .tc := ⟨.hbm, 69, rfl⟩
abbrev main_c_11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_12 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_13 : Ref sig .tc := ⟨.hbm, 84, rfl⟩
abbrev main_v50 : Ref sig .tc := ⟨.hbm, 85, rfl⟩
abbrev main_cst_14 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_15 : Ref sig .tc := ⟨.hbm, 93, rfl⟩
abbrev main_v57 : Ref sig .tc := ⟨.hbm, 94, rfl⟩
abbrev main_cst_16 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_17 : Ref sig .tc := ⟨.hbm, 105, rfl⟩
abbrev main_v67 : Ref sig .tc := ⟨.hbm, 106, rfl⟩
abbrev main_v68 : Ref sig .tc := ⟨.hbm, 107, rfl⟩
abbrev main_c_18 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_20 : Ref sig .tc := ⟨.hbm, 121, rfl⟩
abbrev main_v80 : Ref sig .tc := ⟨.hbm, 122, rfl⟩
abbrev main_v81 : Ref sig .tc := ⟨.hbm, 123, rfl⟩
abbrev main_c_21 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_22 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_23 : Ref sig .tc := ⟨.hbm, 138, rfl⟩
abbrev main_v94 : Ref sig .tc := ⟨.hbm, 139, rfl⟩
abbrev main_cst_24 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_25 : Ref sig .tc := ⟨.hbm, 147, rfl⟩
abbrev main_v101 : Ref sig .tc := ⟨.hbm, 148, rfl⟩
abbrev main_cst_26 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_c_27 : Ref sig .tc := ⟨.hbm, 159, rfl⟩
abbrev main_v111 : Ref sig .tc := ⟨.hbm, 160, rfl⟩
abbrev main_v112 : Ref sig .tc := ⟨.hbm, 161, rfl⟩
abbrev main_c_28 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_29 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_c_30 : Ref sig .tc := ⟨.hbm, 175, rfl⟩
abbrev main_v124 : Ref sig .tc := ⟨.hbm, 176, rfl⟩
abbrev main_v125 : Ref sig .tc := ⟨.hbm, 177, rfl⟩
abbrev main_c_31 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_32 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_33 : Ref sig .tc := ⟨.hbm, 192, rfl⟩
abbrev main_v138 : Ref sig .tc := ⟨.hbm, 193, rfl⟩
abbrev main_cst_34 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_35 : Ref sig .tc := ⟨.hbm, 201, rfl⟩
abbrev main_v145 : Ref sig .tc := ⟨.hbm, 202, rfl⟩
abbrev main_cst_36 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg3_0 : Ref sig .tc := ⟨.vmem, 50, rfl⟩
abbrev cc8_stg4_0 : Ref sig .tc := ⟨.vmem, 51, rfl⟩
abbrev cc8_stg5_0 : Ref sig .tc := ⟨.vmem, 52, rfl⟩
abbrev cc8_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem4_0 : DmaSem sig := 51
abbrev cc8_sem5_0 : DmaSem sig := 52
abbrev cc8_sem5_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S20000 : S_.BroadcastsInDim S20000 (![] : Fin 0 → Fin S20000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S20000_S20000x1_0 : S20000.BroadcastsInDim S20000x1 (![0] : Fin 1 → Fin S20000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S600000x1_S600000_n_0_0_1_wf : ScatterDims.WF S100000 S600000x1 S600000 [] [0] [0] 1
  scatter_S20000_S600000x1_S600000_n_0_0_1_wf : ScatterDims.WF S20000 S600000x1 S600000 [] [0] [0] 1
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v91) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v93) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v105) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v108) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v135) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v136) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v137) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v137) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v148) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v149) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v150) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v151) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v152) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S2x600000 : Shape := ⟨2, ![2, 600000]⟩
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S20000 : Shape := ⟨1, ![20000]⟩
abbrev S20000x1 : Shape := ⟨2, ![20000, 1]⟩
abbrev S600000x128 : Shape := ⟨2, ![600000, 128]⟩
abbrev S100000x1 : Shape := ⟨2, ![100000, 1]⟩
abbrev S1x128 : Shape := ⟨2, ![1, 128]⟩

abbrev nBuf : Space → Nat
  | .hbm => 316
  | .vmem => 0
  | .smem => 0
  | _ => 0

abbrev hbmTy0_0 (i : Nat) : BufTy := match i % 128 with
  | 0 => ⟨S2x600000, .i32⟩
  | 1 => ⟨S100000x128, .f32⟩
  | 2 => ⟨S20000x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S1x600000, .i32⟩
  | 16 => ⟨S600000, .i32⟩
  | 17 => ⟨S1x600000, .i32⟩
  | 18 => ⟨S600000, .i32⟩
  | 19 => ⟨S100000x128, .f32⟩
  | 20 => ⟨S_, .f32⟩
  | 21 => ⟨S600000, .f32⟩
  | 22 => ⟨S_, .f32⟩
  | 23 => ⟨S100000, .f32⟩
  | 24 => ⟨S600000x1, .i32⟩
  | 25 => ⟨S100000, .f32⟩
  | 26 => ⟨S_, .f32⟩
  | 27 => ⟨S20000, .f32⟩
  | 28 => ⟨S600000x1, .i32⟩
  | 29 => ⟨S20000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .f32⟩
  | 41 => ⟨S20000, .f32⟩
  | 42 => ⟨S20000, .i1⟩
  | 43 => ⟨S_, .f32⟩
  | 44 => ⟨S20000, .f32⟩
  | 45 => ⟨S20000, .f32⟩
  | 46 => ⟨S_, .f32⟩
  | 47 => ⟨S_, .f32⟩
  | 48 => ⟨S20000, .f32⟩
  | 49 => ⟨S20000, .f32⟩
  | 50 => ⟨S20000x1, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .f32⟩
  | 61 => ⟨S20000x128, .f32⟩
  | 62 => ⟨S600000x1, .i32⟩
  | 63 => ⟨S20000x128, .f32⟩
  | 64 => ⟨S20000x128, .f32⟩
  | 65 => ⟨S20000x128, .f32⟩
  | 66 => ⟨S100000x1, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S_, .f32⟩
  | 77 => ⟨S100000x128, .f32⟩
  | 78 => ⟨S600000x1, .i32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S100000x128, .f32⟩
  | 97 => ⟨S_, .f32⟩
  | 98 => ⟨S128, .f32⟩
  | 99 => ⟨S_, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S128, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S600000, .f32⟩
  | 121 => ⟨S_, .f32⟩
  | 122 => ⟨S100000, .f32⟩
  | 123 => ⟨S600000x1, .i32⟩
  | 124 => ⟨S100000, .f32⟩
  | 125 => ⟨S_, .f32⟩
  | 126 => ⟨S20000, .f32⟩
  | 127 => ⟨S600000x1, .i32⟩
  | _ => ⟨S2x600000, .i32⟩

abbrev hbmTy0_1 (i : Nat) : BufTy := match i % 128 with
  | 0 => ⟨S20000, .f32⟩
  | 1 => ⟨S_, .f32⟩
  | 2 => ⟨S100000, .f32⟩
  | 3 => ⟨S100000, .i1⟩
  | 4 => ⟨S_, .f32⟩
  | 5 => ⟨S100000, .f32⟩
  | 6 => ⟨S100000, .f32⟩
  | 7 => ⟨S_, .f32⟩
  | 8 => ⟨S_, .f32⟩
  | 9 => ⟨S100000, .f32⟩
  | 10 => ⟨S100000, .f32⟩
  | 11 => ⟨S_, .f32⟩
  | 12 => ⟨S20000, .f32⟩
  | 13 => ⟨S20000, .i1⟩
  | 14 => ⟨S_, .f32⟩
  | 15 => ⟨S20000, .f32⟩
  | 16 => ⟨S20000, .f32⟩
  | 17 => ⟨S_, .f32⟩
  | 18 => ⟨S_, .f32⟩
  | 19 => ⟨S20000, .f32⟩
  | 20 => ⟨S20000, .f32⟩
  | 21 => ⟨S20000x1, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S20000x128, .f32⟩
  | 33 => ⟨S600000x1, .i32⟩
  | 34 => ⟨S20000x128, .f32⟩
  | 35 => ⟨S20000x128, .f32⟩
  | 36 => ⟨S20000x128, .f32⟩
  | 37 => ⟨S100000x1, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S100000x128, .f32⟩
  | 49 => ⟨S600000x1, .i32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S100000x128, .f32⟩
  | 90 => ⟨S_, .f32⟩
  | 91 => ⟨S600000, .f32⟩
  | 92 => ⟨S_, .f32⟩
  | 93 => ⟨S100000, .f32⟩
  | 94 => ⟨S600000x1, .i32⟩
  | 95 => ⟨S100000, .f32⟩
  | 96 => ⟨S_, .f32⟩
  | 97 => ⟨S20000, .f32⟩
  | 98 => ⟨S600000x1, .i32⟩
  | 99 => ⟨S20000, .f32⟩
  | 100 => ⟨S_, .f32⟩
  | 101 => ⟨S100000, .f32⟩
  | 102 => ⟨S100000, .i1⟩
  | 103 => ⟨S_, .f32⟩
  | 104 => ⟨S100000, .f32⟩
  | 105 => ⟨S100000, .f32⟩
  | 106 => ⟨S_, .f32⟩
  | 107 => ⟨S_, .f32⟩
  | 108 => ⟨S100000, .f32⟩
  | 109 => ⟨S100000, .f32⟩
  | 110 => ⟨S_, .f32⟩
  | 111 => ⟨S20000, .f32⟩
  | 112 => ⟨S20000, .i1⟩
  | 113 => ⟨S_, .f32⟩
  | 114 => ⟨S20000, .f32⟩
  | 115 => ⟨S20000, .f32⟩
  | 116 => ⟨S_, .f32⟩
  | 117 => ⟨S_, .f32⟩
  | 118 => ⟨S20000, .f32⟩
  | 119 => ⟨S20000, .f32⟩
  | 120 => ⟨S20000x1, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S2x600000, .i32⟩

abbrev hbmTy0_2 (i : Nat) : BufTy := match i % 128 with
  | 0 => ⟨S600000x1, .i32⟩
  | 1 => ⟨S600000x128, .f32⟩
  | 2 => ⟨S_, .f32⟩
  | 3 => ⟨S20000x128, .f32⟩
  | 4 => ⟨S600000x1, .i32⟩
  | 5 => ⟨S20000x128, .f32⟩
  | 6 => ⟨S20000x128, .f32⟩
  | 7 => ⟨S20000x128, .f32⟩
  | 8 => ⟨S100000x1, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S100000x128, .f32⟩
  | 20 => ⟨S600000x1, .i32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .f32⟩
  | 31 => ⟨S128, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S100000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S128, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | _ => ⟨S2x600000, .i32⟩

abbrev hbmTy (i : Nat) : BufTy := match i / 128 with
  | 0 => hbmTy0_0 i
  | 1 => hbmTy0_1 i
  | 2 => hbmTy0_2 i
  | _ => ⟨S2x600000, .i32⟩

abbrev bufTy : (tb : Table) → Fin (tcTables nBuf tb) → BufTy
  | .hbm, ⟨i, _⟩ => hbmTy i
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_cst_5 : Ref sig .tc := ⟨.hbm, 40, rfl⟩
abbrev main_v17 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v21 : Ref sig .tc := ⟨.hbm, 49, rfl⟩
abbrev main_v22 : Ref sig .tc := ⟨.hbm, 50, rfl⟩
abbrev main_c : Ref sig .tc := ⟨.hbm, 51, rfl⟩
abbrev main_v23 : Ref sig .tc := ⟨.hbm, 52, rfl⟩
abbrev main_v24 : Ref sig .tc := ⟨.hbm, 53, rfl⟩
abbrev main_c_8 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_9 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_10 : Ref sig .tc := ⟨.hbm, 67, rfl⟩
abbrev main_v36 : Ref sig .tc := ⟨.hbm, 68, rfl⟩
abbrev main_v37 : Ref sig .tc := ⟨.hbm, 69, rfl⟩
abbrev main_c_11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_12 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call2_cst : Ref sig .tc := ⟨.hbm, 85, rfl⟩
abbrev main_call2_v0 : Ref sig .tc := ⟨.hbm, 86, rfl⟩
abbrev main_v51 : Ref sig .tc := ⟨.hbm, 87, rfl⟩
abbrev main_cst_13 : Ref sig .tc := ⟨.hbm, 88, rfl⟩
abbrev main_v52 : Ref sig .tc := ⟨.hbm, 89, rfl⟩
abbrev main_cst_14 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_15 : Ref sig .tc := ⟨.hbm, 97, rfl⟩
abbrev main_v59 : Ref sig .tc := ⟨.hbm, 98, rfl⟩
abbrev main_cst_16 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_17 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_18 : Ref sig .tc := ⟨.hbm, 119, rfl⟩
abbrev main_v78 : Ref sig .tc := ⟨.hbm, 120, rfl⟩
abbrev main_cst_19 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_21 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_cst_23 : Ref sig .tc := ⟨.hbm, 135, rfl⟩
abbrev main_call3_v0 : Ref sig .tc := ⟨.hbm, 136, rfl⟩
abbrev main_call3_v1 : Ref sig .tc := ⟨.hbm, 137, rfl⟩
abbrev main_v89 : Ref sig .tc := ⟨.hbm, 138, rfl⟩
abbrev main_cst_24 : Ref sig .tc := ⟨.hbm, 139, rfl⟩
abbrev main_v90 : Ref sig .tc := ⟨.hbm, 140, rfl⟩
abbrev main_v91 : Ref sig .tc := ⟨.hbm, 141, rfl⟩
abbrev main_cst_25 : Ref sig .tc := ⟨.hbm, 142, rfl⟩
abbrev main_v92 : Ref sig .tc := ⟨.hbm, 143, rfl⟩
abbrev main_v93 : Ref sig .tc := ⟨.hbm, 144, rfl⟩
abbrev main_cst_26 : Ref sig .tc := ⟨.hbm, 145, rfl⟩
abbrev main_call4_v0 : Ref sig .tc := ⟨.hbm, 146, rfl⟩
abbrev main_call4_v1 : Ref sig .tc := ⟨.hbm, 147, rfl⟩
abbrev main_v94 : Ref sig .tc := ⟨.hbm, 148, rfl⟩
abbrev main_v95 : Ref sig .tc := ⟨.hbm, 149, rfl⟩
abbrev main_c_27 : Ref sig .tc := ⟨.hbm, 150, rfl⟩
abbrev main_v96 : Ref sig .tc := ⟨.hbm, 151, rfl⟩
abbrev main_v97 : Ref sig .tc := ⟨.hbm, 152, rfl⟩
abbrev main_c_28 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_29 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_c_30 : Ref sig .tc := ⟨.hbm, 166, rfl⟩
abbrev main_v109 : Ref sig .tc := ⟨.hbm, 167, rfl⟩
abbrev main_v110 : Ref sig .tc := ⟨.hbm, 168, rfl⟩
abbrev main_c_31 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_32 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_call5_cst : Ref sig .tc := ⟨.hbm, 184, rfl⟩
abbrev main_call5_v0 : Ref sig .tc := ⟨.hbm, 185, rfl⟩
abbrev main_v124 : Ref sig .tc := ⟨.hbm, 186, rfl⟩
abbrev main_cst_33 : Ref sig .tc := ⟨.hbm, 187, rfl⟩
abbrev main_v125 : Ref sig .tc := ⟨.hbm, 188, rfl⟩
abbrev main_cst_34 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_35 : Ref sig .tc := ⟨.hbm, 196, rfl⟩
abbrev main_v132 : Ref sig .tc := ⟨.hbm, 197, rfl⟩
abbrev main_cst_36 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_cst_37 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_cst_38 : Ref sig .tc := ⟨.hbm, 218, rfl⟩
abbrev main_v151 : Ref sig .tc := ⟨.hbm, 219, rfl⟩
abbrev main_cst_39 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_cst_40 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_cst_41 : Ref sig .tc := ⟨.hbm, 228, rfl⟩
abbrev main_v158 : Ref sig .tc := ⟨.hbm, 229, rfl⟩
abbrev main_v159 : Ref sig .tc := ⟨.hbm, 230, rfl⟩
abbrev main_cst_42 : Ref sig .tc := ⟨.hbm, 231, rfl⟩
abbrev main_v160 : Ref sig .tc := ⟨.hbm, 232, rfl⟩
abbrev main_v161 : Ref sig .tc := ⟨.hbm, 233, rfl⟩
abbrev main_cst_43 : Ref sig .tc := ⟨.hbm, 234, rfl⟩
abbrev main_call6_v0 : Ref sig .tc := ⟨.hbm, 235, rfl⟩
abbrev main_call6_v1 : Ref sig .tc := ⟨.hbm, 236, rfl⟩
abbrev main_v162 : Ref sig .tc := ⟨.hbm, 237, rfl⟩
abbrev main_cst_44 : Ref sig .tc := ⟨.hbm, 238, rfl⟩
abbrev main_v163 : Ref sig .tc := ⟨.hbm, 239, rfl⟩
abbrev main_v164 : Ref sig .tc := ⟨.hbm, 240, rfl⟩
abbrev main_cst_45 : Ref sig .tc := ⟨.hbm, 241, rfl⟩
abbrev main_v165 : Ref sig .tc := ⟨.hbm, 242, rfl⟩
abbrev main_v166 : Ref sig .tc := ⟨.hbm, 243, rfl⟩
abbrev main_cst_46 : Ref sig .tc := ⟨.hbm, 244, rfl⟩
abbrev main_call7_v0 : Ref sig .tc := ⟨.hbm, 245, rfl⟩
abbrev main_call7_v1 : Ref sig .tc := ⟨.hbm, 246, rfl⟩
abbrev main_v167 : Ref sig .tc := ⟨.hbm, 247, rfl⟩
abbrev main_v168 : Ref sig .tc := ⟨.hbm, 248, rfl⟩
abbrev main_c_47 : Ref sig .tc := ⟨.hbm, 249, rfl⟩
abbrev main_v169 : Ref sig .tc := ⟨.hbm, 250, rfl⟩
abbrev main_v170 : Ref sig .tc := ⟨.hbm, 251, rfl⟩
abbrev main_c_48 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_cst_49 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_c_50 : Ref sig .tc := ⟨.hbm, 265, rfl⟩
abbrev main_v182 : Ref sig .tc := ⟨.hbm, 266, rfl⟩
abbrev main_v183 : Ref sig .tc := ⟨.hbm, 267, rfl⟩
abbrev main_c_51 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_cst_52 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_call8_cst : Ref sig .tc := ⟨.hbm, 283, rfl⟩
abbrev main_call8_v0 : Ref sig .tc := ⟨.hbm, 284, rfl⟩
abbrev main_v197 : Ref sig .tc := ⟨.hbm, 285, rfl⟩
abbrev main_cst_53 : Ref sig .tc := ⟨.hbm, 286, rfl⟩
abbrev main_v198 : Ref sig .tc := ⟨.hbm, 287, rfl⟩
abbrev main_cst_54 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_cst_55 : Ref sig .tc := ⟨.hbm, 295, rfl⟩
abbrev main_v205 : Ref sig .tc := ⟨.hbm, 296, rfl⟩
abbrev main_cst_56 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_cst_57 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  scatter_S20000_S600000x1_S600000_n_0_0_1_wf : ScatterDims.WF S20000 S600000x1 S600000 [] [0] [0] 1
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KRun.lean ====
/-
  The idealized program's run with its result named. @main is nineteen segments: ten stretches of host operations and
  nine tiled regions. Each segment takes the buffer contents at its entry to the contents at its exit (a stretch by
  composing its operations; a region by folding every grid point's write-back into the output array and leaving every
  other buffer as it was). Every weakly fair execution terminates, nothing faulting, and in the final state every
  buffer that outlives a region — the result array among them — holds the contents at the last boundary, while each
  argument array still holds its launch contents, no segment writing one.
-/
import proofs.«125626_j17463337025614_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its nineteen segments, read at the result array and at the arguments. -/
theorem run_value : θ_run defs (onTc (τ := τ) (main (F := F))) ⟨m, fun _ => 0, ρ⟩ (fun r => ∀ c : Dev nD,
      r.2.mem ((c.tc : Thread nD τ).loc main_v152) = W19 m ρ c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v152 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c)⟩)

end Cert.KernelIdeal.KRun

end
-- ==== Proof.Spec.lean ====
/-
  The three dense stages of one layer, as functions of whole arrays into the extended reals.

  For a node-feature array x : [100000,128], a weight w : [128,128] and per-feature vectors:

    mmS x w (r, c)                     = Σ_k x (r, k) · w (k, c)
    reluRow a b (r, c)                 = max (a (r, c) + b (0, c)) 0                       (b a [1,128] row)
    reluVec a b (r, c)                 = max (a (r, c) + b (c)) 0                          (b a [128] vector)
    bnRow ε y μ σ² γ β (r, c)          = γ (0,c) · (y (r,c) − μ (0,c)) · rsqrt (σ² (0,c) + ε) + β (0,c)
    bnVec ε y μ σ² γ β (r, c)          = (γ c · (y (r,c) − μ c)) / sqrt (σ² c + ε) + β c

  The two normalisations agree wherever σ² + ε is positive: for 0 < v, v real or +∞, the reciprocal square root
  of v is the inverse of its square root, and a quotient by a nonzero real or by +∞ is the product with the inverse.
-/
import Idealize.ShloMosaic.PureOps.Ideal
import Idealize.ShloMosaic.Lib.ValueIdx

noncomputable section

open scoped BigOperators

namespace Cert.Spec

open Idealize.ShloMosaic Idealize.ShloMosaic.ValueIdx

abbrev NK : Shape := ⟨2, ![100000, 128]⟩
abbrev KK : Shape := ⟨2, ![128, 128]⟩
abbrev R1 : Shape := ⟨2, ![1, 128]⟩
abbrev V1 : Shape := ⟨1, ![128]⟩

/-- The normalisation's epsilon: the single-precision word nearest to 1e-5, read as the real it denotes. -/
def epsBN : EReal := Ideal.ofBits .f32 0x3727C5AC#32

/-- The product x · w, entry by entry. -/
def mmS (x : NK.Idx → EReal) (w : KK.Idx → EReal) : NK.Idx → EReal :=
  fun i => ∑ k : Fin 128, x (ix2 (i 0) k) * w (ix2 k (i 1))

/-- A [1,128] row added to every row, then the maximum with zero. -/
def reluRow (a : NK.Idx → EReal) (b : R1.Idx → EReal) : NK.Idx → EReal :=
  fun i => max (a i + b (ix2 (0 : Fin 1) (i 1))) 0

/-- A [128] vector added to every row, then the maximum with zero. -/
def reluVec (a : NK.Idx → EReal) (b : V1.Idx → EReal) : NK.Idx → EReal :=
  fun i => max (a i + b (ix1 (i 1))) 0

/-- The normalisation with the reciprocal square root, the statistics and the affine pair given as [1,128] rows. -/
def bnRow (eps : EReal) (y : NK.Idx → EReal) (mean var g beta : R1.Idx → EReal) : NK.Idx → EReal :=
  fun i => g (ix2 (0 : Fin 1) (i 1)) * (y i - mean (ix2 (0 : Fin 1) (i 1)))
    * Ideal.rsqrt (var (ix2 (0 : Fin 1) (i 1)) + eps) + beta (ix2 (0 : Fin 1) (i 1))

/-- The normalisation with the quotient by the square root, the statistics and the affine pair given as [128] vectors. -/
def bnVec (eps : EReal) (y : NK.Idx → EReal) (mean var g beta : V1.Idx → EReal) : NK.Idx → EReal :=
  fun i => Ideal.div (g (ix1 (i 1)) * (y i - mean (ix1 (i 1)))) (Ideal.sqrt (var (ix1 (i 1)) + eps)) + beta (ix1 (i 1))

/-- For 0 < v the product with the reciprocal square root is the quotient by the square root. -/
theorem mul_rsqrt_eq_div_sqrt (a v : EReal) (hv : 0 < v) : a * Ideal.rsqrt v = Ideal.div a (Ideal.sqrt v) := by
  induction v using EReal.rec with
  | bot => exact absurd hv (not_lt.mpr bot_le)
  | top =>
    rw [Ideal.rsqrt_top, Ideal.sqrt_top, Ideal.div, if_neg (by decide), EReal.inv_top]
  | coe r =>
    have hr : 0 < r := by exact_mod_cast hv
    have hs : 0 < Real.sqrt r := Real.sqrt_pos.mpr hr
    rw [Ideal.rsqrt_coe, Ideal.sqrt_coe, if_neg (not_lt.mpr hr.le), if_neg (not_lt.mpr hr.le), if_neg hr.ne',
      Ideal.div, if_neg (by exact_mod_cast hs.ne'), EReal.coe_inv]

end Cert.Spec

end
-- ==== Proof.KChain.lean ====
/-
  The host-side stages of the idealized program, as functions of whole arrays.

  The incidence pairs (a [2,600000] integer array) give the node list (row 0) and the hyperedge list (row 1). The
  degree of a node, or the size of a hyperedge, is the number of pairs naming it (a scatter-add of ones); its inverse
  is 1/degree where the degree is positive and 0 elsewhere. One aggregation takes node features to hyperedges (gather
  by node, scatter-add by hyperedge, scale by the inverse size) and back to nodes (gather by hyperedge, scatter-add
  by node, scale by the inverse degree); a negative list entry is first wrapped by the axis length. The column mean
  divides the column sums by 100000, and the column variance is the column mean of the squared deviations.
  One layer is: product with the weights, aggregation, bias and maximum with zero, normalisation of every column by
  its own mean and variance.
-/
import proofs.«125626_j17463337025614_1_alg».proof.Proof.Gen.KernelIdeal
import proofs.«125626_j17463337025614_1_alg».proof.Proof.Spec

set_option synthInstance.maxSize 4096

noncomputable section

namespace Cert.KernelIdeal.KChain

open Cert.KernelIdeal Cert.KernelIdeal.Facts₀ Idealize.ShloMosaic Idealize.ShloMosaic.TcCoe

variable {F : FTy → Type} [FloatOps F]

/-- Row 0 of the incidence pairs: the node of each pair. -/
def srcK (x0 : (⟨S2x600000, .i32⟩ : BufTy).Contents (Elt F)) : (⟨S600000, .i32⟩ : BufTy).Contents (Elt F) :=
  shapeCast _ (extractStridedSlice S1x600000 ![0, 0] x0 slices_S2x600000_S1x600000_0_0) shapeCasts_S1x600000_S600000

/-- Row 1 of the incidence pairs: the hyperedge of each pair. -/
def edgK (x0 : (⟨S2x600000, .i32⟩ : BufTy).Contents (Elt F)) : (⟨S600000, .i32⟩ : BufTy).Contents (Elt F) :=
  shapeCast _ (extractStridedSlice S1x600000 ![1, 0] x0 slices_S2x600000_S1x600000_1_0) shapeCasts_S1x600000_S600000

/-- One per pair. -/
def onesK : (⟨S600000, .f32⟩ : BufTy).Contents (Elt F) :=
  broadcastInDim S600000 ![] bcast_S_S600000 (constant S_ .f32 0x3F800000#32)

/-- The node degrees: how many pairs name each node. -/
def degNK (src : (⟨S600000, .i32⟩ : BufTy).Contents (Elt F)) : (⟨S100000, .f32⟩ : BufTy).Contents (Elt F) :=
  Host.scatterAdd scatter_S100000_S600000x1_S600000_n_0_0_1
    (broadcastInDim S100000 ![] bcast_S_S100000 (constant S_ .f32 0x00000000#32))
    (broadcastInDim S600000x1 ![0] bcast_S600000_S600000x1_0 src) onesK

/-- The hyperedge sizes: how many pairs name each hyperedge. -/
def degEK (edg : (⟨S600000, .i32⟩ : BufTy).Contents (Elt F)) : (⟨S20000, .f32⟩ : BufTy).Contents (Elt F) :=
  Host.scatterAdd scatter_S20000_S600000x1_S600000_n_0_0_1
    (broadcastInDim S20000 ![] bcast_S_S20000 (constant S_ .f32 0x00000000#32))
    (broadcastInDim S600000x1 ![0] bcast_S600000_S600000x1_0 edg) onesK

/-- 1/degree where the degree is positive, 0 elsewhere. -/
def dinvK (src : (⟨S600000, .i32⟩ : BufTy).Contents (Elt F)) : (⟨S100000, .f32⟩ : BufTy).Contents (Elt F) :=
  select (cmpf .ogt (degNK src) (broadcastInDim S100000 ![] bcast_S_S100000 (constant S_ .f32 0x00000000#32)))
    (Host.divf (broadcastInDim S100000 ![] bcast_S_S100000 (constant S_ .f32 0x3F800000#32)) (degNK src))
    (broadcastInDim S100000 ![] bcast_S_S100000 (id (constant S_ .f32 0x00000000#32)))

/-- 1/size where the size is positive, 0 elsewhere. -/
def binvK (edg : (⟨S600000, .i32⟩ : BufTy).Contents (Elt F)) : (⟨S20000, .f32⟩ : BufTy).Contents (Elt F) :=
  select (cmpf .ogt (degEK edg) (broadcastInDim S20000 ![] bcast_S_S20000 (constant S_ .f32 0x00000000#32)))
    (Host.divf (broadcastInDim S20000 ![] bcast_S_S20000 (constant S_ .f32 0x3F800000#32)) (degEK edg))
    (broadcastInDim S20000 ![] bcast_S_S20000 (id (constant S_ .f32 0x00000000#32)))

/-- A list entry as a row index into an axis of length n: a negative entry has n added. -/
def wrapK (n : BitVec 32) (l : (⟨S600000, .i32⟩ : BufTy).Contents (Elt F)) : (⟨S600000x1, .i32⟩ : BufTy).Contents (Elt F) :=
  broadcastInDim S600000x1 ![0] bcast_S600000_S600000x1_0
    (select (cmpi .slt l (broadcastInDim S600000 ![] bcast_S_S600000 (constantI S_ 32 0#32)))
      (addi l (broadcastInDim S600000 ![] bcast_S_S600000 (constantI S_ 32 n))) l)

/-- Nodes to hyperedges: gather by node, sum into hyperedges, scale by the inverse size. -/
def toEdgesK (xw : (⟨S100000x128, .f32⟩ : BufTy).Contents (Elt F)) (src edg : (⟨S600000, .i32⟩ : BufTy).Contents (Elt F))
    (binv : (⟨S20000, .f32⟩ : BufTy).Contents (Elt F)) : (⟨S20000x128, .f32⟩ : BufTy).Contents (Elt F) :=
  mulf (broadcastInDim S20000x128 ![0, 1] bcast_S20000x1_S20000x128_0_1 (broadcastInDim S20000x1 ![0] bcast_S20000_S20000x1_0 binv))
    (Host.scatterAdd scatter_S20000x128_S600000x1_S600000x128_1_0_0_1
      (broadcastInDim S20000x128 ![] bcast_S_S20000x128 (constant S_ .f32 0x00000000#32))
      (broadcastInDim S600000x1 ![0] bcast_S600000_S600000x1_0 edg)
      (Host.gather gather_S100000x128_S600000x1_S600000x128_1_0_n_n_0_1_1128 xw (wrapK 100000#32 src)))

/-- The whole aggregation: nodes to hyperedges and back, scaled by the inverse degree. -/
def graphK (xw : (⟨S100000x128, .f32⟩ : BufTy).Contents (Elt F)) (src edg : (⟨S600000, .i32⟩ : BufTy).Contents (Elt F))
    (dinv : (⟨S100000, .f32⟩ : BufTy).Contents (Elt F)) (binv : (⟨S20000, .f32⟩ : BufTy).Contents (Elt F)) :
    (⟨S100000x128, .f32⟩ : BufTy).Contents (Elt F) :=
  mulf (broadcastInDim S100000x128 ![0, 1] bcast_S100000x1_S100000x128_0_1 (broadcastInDim S100000x1 ![0] bcast_S100000_S100000x1_0 dinv))
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 src)
      (Host.gather gather_S20000x128_S600000x1_S600000x128_1_0_n_n_0_1_1128 (toEdgesK xw src edg binv) (wrapK 20000#32 edg)))

/-- The column means: the column sums over 100000. -/
def meanK (y : (⟨S100000x128, .f32⟩ : BufTy).Contents (Elt F)) : (⟨S128, .f32⟩ : BufTy).Contents (Elt F) :=
  Host.divf (Host.reduceAdd y (constant S_ .f32 0x00000000#32) reducesTo_S100000x128_S128_d0 h_S_)
    (broadcastInDim S128 ![] bcast_S_S128 (constant S_ .f32 0x47C35000#32))

/-- The deviations from the column means. -/
def devK (y : (⟨S100000x128, .f32⟩ : BufTy).Contents (Elt F)) : (⟨S100000x128, .f32⟩ : BufTy).Contents (Elt F) :=
  subf y (broadcastInDim S100000x128 ![0, 1] bcast_S1x128_S100000x128_0_1 (broadcastInDim S1x128 ![1] bcast_S128_S1x128_1 (meanK y)))

/-- The column variances: the column means of the squared deviations. -/
def varK (y : (⟨S100000x128, .f32⟩ : BufTy).Contents (Elt F)) : (⟨S128, .f32⟩ : BufTy).Contents (Elt F) :=
  Host.divf (Host.reduceAdd (mulf (devK y) (devK y)) (constant S_ .f32 0x00000000#32) reducesTo_S100000x128_S128_d0 h_S_)
    (broadcastInDim S128 ![] bcast_S_S128 (constant S_ .f32 0x47C35000#32))

/-- A [128] vector as a [1,128] row. -/
def rowK (v : (⟨S128, .f32⟩ : BufTy).Contents (Elt F)) : (⟨S1x128, .f32⟩ : BufTy).Contents (Elt F) :=
  shapeCast _ v shapeCasts_S128_S1x128

/-! ## One layer and the three layers, at the extended reals -/

/-- The layer before its normalisation: the maximum with zero of the aggregated product plus the bias. -/
def yK (x : (⟨S100000x128, .f32⟩ : BufTy).Contents (Elt Ideal)) (w : (⟨S128x128, .f32⟩ : BufTy).Contents (Elt Ideal))
    (b : (⟨S128, .f32⟩ : BufTy).Contents (Elt Ideal)) (src edg : (⟨S600000, .i32⟩ : BufTy).Contents (Elt Ideal))
    (dinv : (⟨S100000, .f32⟩ : BufTy).Contents (Elt Ideal)) (binv : (⟨S20000, .f32⟩ : BufTy).Contents (Elt Ideal)) :
    (⟨S100000x128, .f32⟩ : BufTy).Contents (Elt Ideal) :=
  Cert.Spec.reluRow (graphK (Cert.Spec.mmS x w) src edg dinv binv) (rowK b)

/-- One layer: every column of the biased maximum normalised by its own mean and variance, scaled and shifted. -/
def layerK (x : (⟨S100000x128, .f32⟩ : BufTy).Contents (Elt Ideal)) (w : (⟨S128x128, .f32⟩ : BufTy).Contents (Elt Ideal))
    (b g beta : (⟨S128, .f32⟩ : BufTy).Contents (Elt Ideal)) (src edg : (⟨S600000, .i32⟩ : BufTy).Contents (Elt Ideal))
    (dinv : (⟨S100000, .f32⟩ : BufTy).Contents (Elt Ideal)) (binv : (⟨S20000, .f32⟩ : BufTy).Contents (Elt Ideal)) :
    (⟨S100000x128, .f32⟩ : BufTy).Contents (Elt Ideal) :=
  Cert.Spec.bnRow Cert.Spec.epsBN (yK x w b src edg dinv binv) (rowK (meanK (yK x w b src edg dinv binv)))
    (rowK (varK (yK x w b src edg dinv binv))) (rowK g) (rowK beta)

/-- The three layers in turn, the lists and inverse degrees taken once from the incidence pairs. -/
def netK (x0 : (⟨S2x600000, .i32⟩ : BufTy).Contents (Elt Ideal)) (x1 : (⟨S100000x128, .f32⟩ : BufTy).Contents (Elt Ideal))
    (x3 : (⟨S128x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 x13 x14 : (⟨S128, .f32⟩ : BufTy).Contents (Elt Ideal)) :
    (⟨S100000x128, .f32⟩ : BufTy).Contents (Elt Ideal) :=
  layerK (layerK (layerK x1 x3 x4 x5 x6 (srcK x0) (edgK x0) (dinvK (srcK x0)) (binvK (edgK x0)))
      x7 x8 x9 x10 (srcK x0) (edgK x0) (dinvK (srcK x0)) (binvK (edgK x0)))
    x11 x12 x13 x14 (srcK x0) (edgK x0) (dinvK (srcK x0)) (binvK (edgK x0))

end Cert.KernelIdeal.KChain

end
-- ==== Proof.LibRowBlocks.lean ====
/-
  Row blocks of a product and of a bias row, at the extended reals.

  For arrays read as functions of a (row, column) index into the extended reals:

    mm x w (p, q)      = Σ_k x (p, k) · w (k, q)          -- an M x K by K x N product
    addRow  a b (p, q) = a (p, q) + b (0, q)               -- a 1 x N row added to every row
    reluRow a b (p, q) = max (a (p, q) + b (0, q)) 0       -- the same, then the maximum with zero

  and, for a computation that works on the rows in blocks: if what is computed on a block of Mb rows is the product (or
  the pointwise formula) of the blocks it loaded, each loaded block being its array read at rows o .. o + Mb (all
  columns; the second operand of a product read whole), then the result block is the whole-array function read at the
  same rows (blk_mm, blk_row).  The blocks' positions enter only through the coordinates of their embeddings, so the
  lemmas serve any row-tiled pipeline: instantiate the embeddings at the windows' blocks and discharge the six coordinate
  facts by arithmetic.
-/
import Idealize.ShloMosaic.PureOps.Ideal
import Idealize.ShloMosaic.Lib.ValueIdx

noncomputable section

open scoped BigOperators

namespace Idealize.ShloMosaic.ValueIdx

open Idealize.ShloMosaic

/-- The product of an M x K array with a K x N array: entry (p, q) is the sum over the inner position. -/
def mm (M K N : ℕ) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A 1 x N row added to every row of an M x N array. -/
def addRow (M N : ℕ) (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- A 1 x N row added to every row of an M x N array, then the maximum with zero. -/
def reluRow (M N : ℕ) (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (i 1))) 0

theorem mm_ix2 (M K N : ℕ) (x w) (p : Fin M) (q : Fin N) : mm M K N x w (ix2 p q) = ∑ k : Fin K, x (ix2 p k) * w (ix2 k q) := rfl
theorem addRow_ix2 (M N : ℕ) (a b) (p : Fin M) (q : Fin N) : addRow M N a b (ix2 p q) = a (ix2 p q) + b (ix2 (0 : Fin 1) q) := rfl
theorem reluRow_ix2 (M N : ℕ) (a b) (p : Fin M) (q : Fin N) : reluRow M N a b (ix2 p q) = max (a (ix2 p q) + b (ix2 (0 : Fin 1) q)) 0 := rfl

/-! ## A block of rows is the block of the whole-array function

  A region cuts the rows into blocks; point t works on rows o .. o + Mb of its arrays (o the block's first row), all
  columns.  If what the body computes on the block is the product (or the bias formula) of the blocks it loaded, and each
  loaded block is its array read at the block's rows, then the result block is the whole-array product (or bias formula)
  read at the block's rows.  The blocks' positions enter only through the coordinates of their embeddings. -/

theorem hz2 : (![0, 0] : Fin 2 → Nat) = fun _ => 0 := funext fun a => by fin_cases a <;> rfl

/-- A product block: rows o .. o + Mb of x · w are (rows o .. o + Mb of x) · w. -/
theorem blk_mm {Mb M K N : ℕ} (pay : (⟨2, ![Mb, N]⟩ : Shape).Idx → EReal)
    (x0 : (⟨2, ![Mb, K]⟩ : Shape).Idx → EReal) (x1 : (⟨2, ![K, N]⟩ : Shape).Idx → EReal)
    (hpay : ∀ (p : Fin Mb) (q : Fin N), pay (ix2 p q) = ∑ k : Fin K, x0 (ix2 p k) * x1 (ix2 k q))
    (A0 : (⟨2, ![M, K]⟩ : Shape).Idx → EReal) (A1 : (⟨2, ![K, N]⟩ : Shape).Idx → EReal)
    (e0 : (⟨2, ![Mb, K]⟩ : Shape).Idx → (⟨2, ![M, K]⟩ : Shape).Idx)
    (e1 : (⟨2, ![K, N]⟩ : Shape).Idx → (⟨2, ![K, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = o + (y 0).val) (h21 : ∀ y, ((e2 y) 1).val = (y 1).val)
    (j : (⟨2, ![Mb, N]⟩ : Shape).Idx) : pay j = mm M K N A0 A1 (e2 j) := by
  obtain ⟨p, q, rfl⟩ : ∃ (p : Fin Mb) (q : Fin N), j = ix2 p q := ⟨j 0, j 1, eq_ix2 j⟩
  rw [hpay]
  show _ = ∑ k : Fin K, A0 (ix2 ((e2 (ix2 p q)) 0) k) * A1 (ix2 k ((e2 (ix2 p q)) 1))
  refine Finset.sum_congr rfl fun k _ => ?_
  rw [hx0, hx1]
  have a0 : e0 (ix2 p k) = ix2 ((e2 (ix2 p q)) 0) k := funext fun a => Fin.ext (by
    match a with
    | ⟨0, _⟩ => exact (h00 (ix2 p k)).trans (h20 (ix2 p q)).symm
    | ⟨1, _⟩ => exact h01 (ix2 p k))
  have a1 : e1 (ix2 k q) = ix2 k ((e2 (ix2 p q)) 1) := funext fun a => Fin.ext (by
    match a with
    | ⟨0, _⟩ => exact h10 (ix2 k q)
    | ⟨1, _⟩ => exact (h11 (ix2 k q)).trans (h21 (ix2 p q)).symm)
  rw [a0, a1]
  rfl

/-- A bias-row block: on rows o .. o + Mb, a pointwise f of the array's entry and the row's entry in that column. -/
theorem blk_row {Mb M N : ℕ} (f : EReal → EReal → EReal) (pay : (⟨2, ![Mb, N]⟩ : Shape).Idx → EReal)
    (x0 : (⟨2, ![Mb, N]⟩ : Shape).Idx → EReal) (x1 : (⟨2, ![1, N]⟩ : Shape).Idx → EReal)
    (hpay : ∀ (p : Fin Mb) (q : Fin N), pay (ix2 p q) = f (x0 (ix2 p q)) (x1 (ix2 (0 : Fin 1) q)))
    (A0 : (⟨2, ![M, N]⟩ : Shape).Idx → EReal) (A1 : (⟨2, ![1, N]⟩ : Shape).Idx → EReal)
    (e0 : (⟨2, ![Mb, N]⟩ : Shape).Idx → (⟨2, ![M, N]⟩ : Shape).Idx)
    (e1 : (⟨2, ![1, N]⟩ : Shape).Idx → (⟨2, ![1, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y))
    (h0 : ∀ y (a : Fin 2), ((e0 y) a).val = ((e2 y) a).val)
    (h11 : ∀ y, ((e1 y) 1).val = (y 1).val) (h21 : ∀ y, ((e2 y) 1).val = (y 1).val)
    (j : (⟨2, ![Mb, N]⟩ : Shape).Idx) : pay j = f (A0 (e2 j)) (A1 (ix2 (0 : Fin 1) ((e2 j) 1))) := by
  obtain ⟨p, q, rfl⟩ : ∃ (p : Fin Mb) (q : Fin N), j = ix2 p q := ⟨j 0, j 1, eq_ix2 j⟩
  rw [hpay, hx0, hx1]
  have a0 : e0 (ix2 p q) = e2 (ix2 p q) := funext fun a => Fin.ext (h0 (ix2 p q) a)
  have a1 : e1 (ix2 (0 : Fin 1) q) = ix2 (0 : Fin 1) ((e2 (ix2 p q)) 1) := funext fun a => Fin.ext (by
    match a with
    | ⟨0, _⟩ =>
      show ((e1 (ix2 (0 : Fin 1) q)) 0).val = 0
      exact Nat.lt_one_iff.mp ((e1 (ix2 (0 : Fin 1) q)) 0).isLt
    | ⟨1, _⟩ => exact (h11 (ix2 (0 : Fin 1) q)).trans (h21 (ix2 p q)).symm)
  rw [a0, a1]
  rfl

end Idealize.ShloMosaic.ValueIdx

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.RegionMM0.lean ====
/-
  Region 0 (a product), at the extended reals and for any contents V of the buffers when the region is entered.

  The region walks the 100000 rows of its first array in twenty blocks of 5000; at point t it loads rows
  5000 t .. 5000 t + 4999 of that array and the whole 128 x 128 second array, and stores their product into the same
  rows of its output array. The product of a row block is the row block of the product, and the twenty blocks fill the
  output array, so after the region the output array is the product of the two input arrays, entry by entry:

    out (r, c) = Σ_k x (r, k) · w (k, c).
-/
import proofs.«125626_j17463337025614_1_alg».proof.Proof.Gen.KernelIdeal.Frame
import proofs.«125626_j17463337025614_1_alg».proof.Proof.Spec
import proofs.«125626_j17463337025614_1_alg».proof.Proof.LibRowBlocks
import proofs.«125626_j17463337025614_1_alg».proof.Proof.LibDotIx2
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The dimension numbers are those of a plain 5000 x 128 by 128 x 128 product. -/
theorem plainDot0 : PlainDot dot_S5000x128_S128x128_S5000x128_1_0_0_1_n_n where
  rank := rfl
  size := rfl
  l0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  l1 := fun j q => dot_S5000x128_S128x128_S5000x128_1_0_0_1_n_n.lhsIdx_val_of_single rfl j q
  r0 := fun j q => dot_S5000x128_S128x128_S5000x128_1_0_0_1_n_n.rhsIdx_val_of_single rfl j q
  r1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The body's payload at row p and column q: the sum over the inner position of the loaded blocks' entries
    (the two narrowings are the identity on extended reals, and the accumulator starts at zero). -/
theorem pay0_ix2 (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact matmul_zero_ix2_any plainDot0 none _ _ p q

theorem zeros0 : (![0, 0] : Fin 2 → Nat) = fun _ => 0 := funext fun a => by fin_cases a <;> rfl

theorem points0 : cfg0.N = 20 := N_0

/-- The index maps at every point of the grid: point t stages row block t of the two row-tiled arrays and the
    whole second operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0_eq (c : Dev nD) (t : Fin cfg0.N) :
    (dat0 (F := Ideal) V c).flushed 2 t
      = ((cfg0.win 2).blk t).view.read (Elt Ideal) (Cert.Spec.mmS (V c main_arg1) (V c main_arg3)) := by
  show (cfg0.win 2).cut (grid0.coords t) ((dat0 (F := Ideal) V c).after 2 t) = _
  rw [after0_2]
  unfold out0_2
  rw [View.canon_unit_zero zeros0]
  simp only [View.ld_unit_zero (S := S5000x128) zeros0, View.ld_unit_zero (S := S128x128) zeros0]
  obtain ⟨e0, e1, e2, e3, e4, e5⟩ := idx_facts0 t
  funext j
  show k0_pay1 (iblk0 V c 0 t) (iblk0 V c 1 t) j
    = mm 100000 128 128 (V c main_arg1) (V c main_arg3) (((cfg0.win 2).blk t).view.emb j)
  refine blk_mm (k0_pay1 (iblk0 V c 0 t) (iblk0 V c 1 t)) (iblk0 V c 0 t) (iblk0 V c 1 t)
    (pay0_ix2 _ _) (V c main_arg1) (V c main_arg3)
    ((cfg0.win 0).blk t).view.emb ((cfg0.win 1).blk t).view.emb ((cfg0.win 2).blk t).view.emb
    (fun y => rfl) (fun y => rfl) (5000 * t.val) ?_ ?_ ?_ ?_ ?_ ?_ j
  · intro y
    show win0_0.index t (0 : Fin 2) * 5000 + 1 * (y 0).val = 5000 * t.val + (y 0).val
    rw [e0]; omega
  · intro y
    show win0_0.index t (1 : Fin 2) * 128 + 1 * (y 1).val = (y 1).val
    rw [e1]; omega
  · intro y
    show win0_1.index t (0 : Fin 2) * 128 + 1 * (y 0).val = (y 0).val
    rw [e2]; omega
  · intro y
    show win0_1.index t (1 : Fin 2) * 128 + 1 * (y 1).val = (y 1).val
    rw [e3]; omega
  · intro y
    show win0_2.index t (0 : Fin 2) * 5000 + 1 * (y 0).val = 5000 * t.val + (y 0).val
    rw [e4]; omega
  · intro y
    show win0_2.index t (1 : Fin 2) * 128 + 1 * (y 1).val = (y 1).val
    rw [e5]; omega

/-- An index of the array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v21).slice (win0_2.rect t)).set ↔ _
  rw [View.set_slice_whole, Rect.mem_set_unit]
  exact Iff.rfl

/-- Every index of the array is in the block of the point its row falls in: the twenty blocks of 5000 rows fill it. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by rw [points0]; omega⟩, flush0_2 _, ?_⟩
  rw [mem_blk0]
  obtain ⟨-, -, -, -, e4, e5⟩ := idx_facts0 ⟨(i 0).val / 5000, by rw [points0]; omega⟩
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 128 ≤ (i 1).val ∧ (i 1).val < win0_2.index _ (1 : Fin 2) * 128 + 128
    rw [e5]
    omega

/-- The region's output array after the region: the product of its two input arrays as the region finds them. -/
theorem final0 (c : Dev nD) :
    (dat0 (F := Ideal) V c).arrAt 2 cfg0.N = Cert.Spec.mmS (V c main_arg1) (V c main_arg3) :=
  (dat0 (F := Ideal) V c).arrAt_eq_of_cover 2 (Cert.Spec.mmS (V c main_arg1) (V c main_arg3))
    (fun t _ => flushed0_eq V c t) cover0

end Cert.KernelIdeal.RegionValue

end
-- ==== Proof.RegionBR1.lean ====
/-
  Region 1 (bias row, then maximum with zero), at the extended reals and for any contents V of the buffers when the
  region is entered.

  The region walks the 100000 rows of its first array in twenty blocks of 5000; at point t it loads rows
  5000 t .. 5000 t + 4999 of that array and the whole 1 x 128 bias row, and stores max (a + b, 0) into the same rows of
  its output array. The formula is pointwise in the row, and the twenty blocks fill the output array, so after the
  region the output array is, entry by entry,

    out (r, c) = max (a (r, c) + b (0, c)) 0.
-/
import proofs.«125626_j17463337025614_1_alg».proof.Proof.Gen.KernelIdeal.Frame
import proofs.«125626_j17463337025614_1_alg».proof.Proof.Spec
import proofs.«125626_j17463337025614_1_alg».proof.Proof.LibRowBlocks
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload at row p and column q: the loaded block's entry plus the loaded row's entry in that column,
    then the maximum with zero (the two same-shape casts are the identity, the row is repeated down the rows). -/
theorem pay1_ix2 (x0 : Vec Ideal S5000x128 .f32) (x1 : Vec Ideal S1x128 .f32) (p : Fin 5000) (q : Fin 128) :
    k1_pay1 x0 x1 (ix2 p q) = max (x0 (ix2 p q) + x1 (ix2 (0 : Fin 1) q)) 0 := by
  unfold k1_pay1
  simp only [maximumf_apply, addf_apply, broadcast_apply, shapeCast_self, broadcastTo_1b_ab_apply]
  show max _ (Ideal.ofBits .f32 0x00000000#32) = _
  rw [Ideal.ofBits_zero_f32]

theorem zeros1 : (![0, 0] : Fin 2 → Nat) = fun _ => 0 := funext fun a => by fin_cases a <;> rfl

theorem points1 : cfg1.N = 20 := N_1

/-- The index maps at every point of the grid: point t stages row block t of the two row-tiled arrays and the
    whole bias row. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias-and-maximum formula of the two arrays as the region finds them. -/
theorem flushed1_eq (c : Dev nD) (t : Fin cfg1.N) :
    (dat1 (F := Ideal) V c).flushed 2 t
      = ((cfg1.win 2).blk t).view.read (Elt Ideal) (Cert.Spec.reluRow (V c main_v47) (V c main_v48)) := by
  show (cfg1.win 2).cut (grid1.coords t) ((dat1 (F := Ideal) V c).after 2 t) = _
  rw [after1_2]
  unfold out1_2
  rw [View.canon_unit_zero zeros1]
  simp only [View.ld_unit_zero (S := S5000x128) zeros1, View.ld_unit_zero (S := S1x128) zeros1]
  obtain ⟨e0, e1, e2, e3, e4, e5⟩ := idx_facts1 t
  funext j
  show k1_pay1 (iblk1 V c 0 t) (iblk1 V c 1 t) j
    = (fun a b : EReal => max (a + b) 0) (V c main_v47 (((cfg1.win 2).blk t).view.emb j))
        (V c main_v48 (ix2 (0 : Fin 1) ((((cfg1.win 2).blk t).view.emb j) 1)))
  refine blk_row (fun a b : EReal => max (a + b) 0) (k1_pay1 (iblk1 V c 0 t) (iblk1 V c 1 t))
    (iblk1 V c 0 t) (iblk1 V c 1 t) (pay1_ix2 _ _) (V c main_v47) (V c main_v48)
    ((cfg1.win 0).blk t).view.emb ((cfg1.win 1).blk t).view.emb ((cfg1.win 2).blk t).view.emb
    (fun y => rfl) (fun y => rfl) ?_ ?_ ?_ j
  · intro y a
    match a with
    | ⟨0, _⟩ =>
      show win1_0.index t (0 : Fin 2) * 5000 + 1 * (y 0).val = win1_2.index t (0 : Fin 2) * 5000 + 1 * (y 0).val
      rw [e0, e4]
    | ⟨1, _⟩ =>
      show win1_0.index t (1 : Fin 2) * 128 + 1 * (y 1).val = win1_2.index t (1 : Fin 2) * 128 + 1 * (y 1).val
      rw [e1, e5]
  · intro y
    show win1_1.index t (1 : Fin 2) * 128 + 1 * (y 1).val = (y 1).val
    rw [e3]; omega
  · intro y
    show win1_2.index t (1 : Fin 2) * 128 + 1 * (y 1).val = (y 1).val
    rw [e5]; omega

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every index of the array is in the block of the point its row falls in: the twenty blocks of 5000 rows fill it. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 5000, by rw [points1]; omega⟩, flush1_2 _, ?_⟩
  rw [mem_blk1]
  obtain ⟨-, -, -, -, e4, e5⟩ := idx_facts1 ⟨(i 0).val / 5000, by rw [points1]; omega⟩
  intro a
  match a with
  | ⟨0, _⟩ =>
    show win1_2.index _ (0 : Fin 2) * 5000 ≤ (i 0).val ∧ (i 0).val < win1_2.index _ (0 : Fin 2) * 5000 + 5000
    rw [e4]
    show (i 0).val / 5000 * 5000 ≤ (i 0).val ∧ (i 0).val < (i 0).val / 5000 * 5000 + 5000
    omega
  | ⟨1, _⟩ =>
    show win1_2.index _ (1 : Fin 2) * 128 ≤ (i 1).val ∧ (i 1).val < win1_2.index _ (1 : Fin 2) * 128 + 128
    rw [e5]
    omega

/-- The region's output array after the region: its first input array plus its bias row, then the maximum with zero. -/
theorem final1 (c : Dev nD) :
    (dat1 (F := Ideal) V c).arrAt 2 cfg1.N = Cert.Spec.reluRow (V c main_v47) (V c main_v48) :=
  (dat1 (F := Ideal) V c).arrAt_eq_of_cover 2 (Cert.Spec.reluRow (V c main_v47) (V c main_v48))
    (fun t _ => flushed1_eq V c t) cover1

end Cert.KernelIdeal.RegionValue

end
-- ==== Proof.RegionBN2.lean ====
/-
  The first normalisation region: the array it leaves is one function of the arrays it finds.

  The region cuts the rows of y : [100000,128] into 20 blocks of 5000 rows.  On each block it computes, with the mean,
  variance, scale and shift given as [1,128] rows broadcast down the block's rows,

      (scale · (y − mean)) · rsqrt (variance + ε) + shift,

  and writes the block back at the same rows of the output.  Entry by entry that is the normalisation bnRow of the five
  whole arrays read at the block's rows; since the 20 blocks tile the output, the output ends holding bnRow of the arrays.
-/
import proofs.«125626_j17463337025614_1_alg».proof.Proof.Gen.KernelIdeal.Frame
import proofs.«125626_j17463337025614_1_alg».proof.Proof.Spec
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem bnZeros2 : (![0, 0] : Fin 2 → Nat) = fun _ => 0 := funext fun a => by fin_cases a <;> rfl

/-- The block's arithmetic at row p, column q: each [1,128] row enters at its one row, column q. -/
theorem pay2_ix (v0 v5 : Vec Ideal S1x128 .f32) (v7 : Vec Ideal S5000x128 .f32) (v9 v17 : Vec Ideal S1x128 .f32)
    (p : Fin 5000) (q : Fin 128) :
    k2_pay1 v0 v5 v7 v9 v17 (ix2 p q)
      = v5 (ix2 (0 : Fin 1) q) * (v7 (ix2 p q) - v9 (ix2 (0 : Fin 1) q))
          * Ideal.rsqrt (v0 (ix2 (0 : Fin 1) q) + Cert.Spec.epsBN) + v17 (ix2 (0 : Fin 1) q) := by
  unfold k2_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The block indices over the grid: point t works on row block t of y and of the output (all columns); the four rows
    are read whole at every point. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The whole-array function the output ends holding. -/
abbrev G2 (c : Dev nD) : Cert.Spec.NK.Idx → EReal :=
  Cert.Spec.bnRow Cert.Spec.epsBN (V c main_v49) (V c main_v60) (V c main_v61) (V c main_v62) (V c main_v63)

/-- What point t writes back is block t of G2. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero bnZeros2]
  simp only [View.ld_unit_zero (S := S5000x128) bnZeros2, View.ld_unit_zero (S := S1x128) bnZeros2]
  obtain ⟨a00, a01, a10, a11, a20, a21, a30, a31, a40, a41, a50, a51⟩ := idx_facts2 t
  funext j
  obtain ⟨p, q, rfl⟩ : ∃ (p : Fin 5000) (q : Fin 128), j = ix2 p q := ⟨j 0, j 1, eq_ix2 j⟩
  show k2_pay1 (iblk2 V c 2 t) (iblk2 V c 3 t) (iblk2 V c 0 t) (iblk2 V c 1 t) (iblk2 V c 4 t) (ix2 p q)
    = G2 V c (((cfg2.win 5).blk t).view.emb (ix2 p q))
  rw [pay2_ix]
  have h0 : ((cfg2.win 0).blk t).view.emb (ix2 p q) = ((cfg2.win 5).blk t).view.emb (ix2 p q) := by
    funext a; apply Fin.ext
    match a with
    | ⟨0, _⟩ => show win2_0.index t (0 : Fin 2) * 5000 + 1 * p.val = win2_5.index t (0 : Fin 2) * 5000 + 1 * p.val; rw [a00, a50]
    | ⟨1, _⟩ => show win2_0.index t (1 : Fin 2) * 128 + 1 * q.val = win2_5.index t (1 : Fin 2) * 128 + 1 * q.val; rw [a01, a51]
  have h1 : ((cfg2.win 1).blk t).view.emb (ix2 (0 : Fin 1) q) = ix2 (0 : Fin 1) ((((cfg2.win 5).blk t).view.emb (ix2 p q)) 1) := by
    funext a; apply Fin.ext
    match a with
    | ⟨0, _⟩ => show win2_1.index t (0 : Fin 2) * 1 + 1 * 0 = 0; rw [a10]
    | ⟨1, _⟩ => show win2_1.index t (1 : Fin 2) * 128 + 1 * q.val = win2_5.index t (1 : Fin 2) * 128 + 1 * q.val; rw [a11, a51]
  have h2 : ((cfg2.win 2).blk t).view.emb (ix2 (0 : Fin 1) q) = ix2 (0 : Fin 1) ((((cfg2.win 5).blk t).view.emb (ix2 p q)) 1) := by
    funext a; apply Fin.ext
    match a with
    | ⟨0, _⟩ => show win2_2.index t (0 : Fin 2) * 1 + 1 * 0 = 0; rw [a20]
    | ⟨1, _⟩ => show win2_2.index t (1 : Fin 2) * 128 + 1 * q.val = win2_5.index t (1 : Fin 2) * 128 + 1 * q.val; rw [a21, a51]
  have h3 : ((cfg2.win 3).blk t).view.emb (ix2 (0 : Fin 1) q) = ix2 (0 : Fin 1) ((((cfg2.win 5).blk t).view.emb (ix2 p q)) 1) := by
    funext a; apply Fin.ext
    match a with
    | ⟨0, _⟩ => show win2_3.index t (0 : Fin 2) * 1 + 1 * 0 = 0; rw [a30]
    | ⟨1, _⟩ => show win2_3.index t (1 : Fin 2) * 128 + 1 * q.val = win2_5.index t (1 : Fin 2) * 128 + 1 * q.val; rw [a31, a51]
  have h4 : ((cfg2.win 4).blk t).view.emb (ix2 (0 : Fin 1) q) = ix2 (0 : Fin 1) ((((cfg2.win 5).blk t).view.emb (ix2 p q)) 1) := by
    funext a; apply Fin.ext
    match a with
    | ⟨0, _⟩ => show win2_4.index t (0 : Fin 2) * 1 + 1 * 0 = 0; rw [a40]
    | ⟨1, _⟩ => show win2_4.index t (1 : Fin 2) * 128 + 1 * q.val = win2_5.index t (1 : Fin 2) * 128 + 1 * q.val; rw [a41, a51]
  have r0 : iblk2 V c 0 t (ix2 p q) = V c main_v49 (((cfg2.win 5).blk t).view.emb (ix2 p q)) := congrArg (V c main_v49) h0
  have r1 : iblk2 V c 1 t (ix2 (0 : Fin 1) q) = V c main_v60 (ix2 (0 : Fin 1) ((((cfg2.win 5).blk t).view.emb (ix2 p q)) 1)) := congrArg (V c main_v60) h1
  have r2 : iblk2 V c 2 t (ix2 (0 : Fin 1) q) = V c main_v61 (ix2 (0 : Fin 1) ((((cfg2.win 5).blk t).view.emb (ix2 p q)) 1)) := congrArg (V c main_v61) h2
  have r3 : iblk2 V c 3 t (ix2 (0 : Fin 1) q) = V c main_v62 (ix2 (0 : Fin 1) ((((cfg2.win 5).blk t).view.emb (ix2 p q)) 1)) := congrArg (V c main_v62) h3
  have r4 : iblk2 V c 4 t (ix2 (0 : Fin 1) q) = V c main_v63 (ix2 (0 : Fin 1) ((((cfg2.win 5).blk t).view.emb (ix2 p q)) 1)) := congrArg (V c main_v63) h4
  rw [r0, r1, r2, r3, r4]
  rfl

/-- An index of the output is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v64).slice (win2_5.rect t)).set ↔ _
  rw [View.set_slice_whole, Rect.mem_set_unit]
  exact Iff.rfl

/-- The 20 blocks tile the output: row r is in block r / 5000. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_5 _, ?_⟩
  rw [mem_blk2]
  obtain ⟨-, -, -, -, -, -, -, -, -, -, e0, e1⟩ := idx_facts2 ⟨(i 0).val / 5000, by rw [hN]; omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ (i 0).val ∧ (i 0).val < (i 0).val / 5000 * 5000 + 5000; omega
  | ⟨1, _⟩ => show win2_5.index _ (1 : Fin 2) * 128 ≤ (i 1).val ∧ (i 1).val < win2_5.index _ (1 : Fin 2) * 128 + 128; rw [e1]; omega

/-- The output after the region: the normalisation of the five arrays the region found. -/
theorem final2 (c : Dev nD) : (dat2 (F := Ideal) V c).arrAt 5 cfg2.N
    = Cert.Spec.bnRow Cert.Spec.epsBN (V c main_v49) (V c main_v60) (V c main_v61) (V c main_v62) (V c main_v63) :=
  (dat2 V c).arrAt_eq_of_cover 5 (G2 V c) (fun t _ => flushed2_eq V c t) cover2

end Cert.KernelIdeal.RegionValue

end
-- ==== Proof.RegionMM3.lean ====
/-
  Region 3 (a product), at the extended reals and for any contents V of the buffers when the region is entered.

  The region walks the 100000 rows of its first array in twenty blocks of 5000; at point t it loads rows
  5000 t .. 5000 t + 4999 of that array and the whole 128 x 128 second array, and stores their product into the same
  rows of its output array. The product of a row block is the row block of the product, and the twenty blocks fill the
  output array, so after the region the output array is the product of the two input arrays, entry by entry:

    out (r, c) = Σ_k x (r, k) · w (k, c).
-/
import proofs.«125626_j17463337025614_1_alg».proof.Proof.Gen.KernelIdeal.Frame
import proofs.«125626_j17463337025614_1_alg».proof.Proof.Spec
import proofs.«125626_j17463337025614_1_alg».proof.Proof.LibRowBlocks
import proofs.«125626_j17463337025614_1_alg».proof.Proof.LibDotIx2
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The dimension numbers are those of a plain 5000 x 128 by 128 x 128 product. -/
theorem plainDot3 : PlainDot dot_S5000x128_S128x128_S5000x128_1_0_0_1_n_n where
  rank := rfl
  size := rfl
  l0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  l1 := fun j q => dot_S5000x128_S128x128_S5000x128_1_0_0_1_n_n.lhsIdx_val_of_single rfl j q
  r0 := fun j q => dot_S5000x128_S128x128_S5000x128_1_0_0_1_n_n.rhsIdx_val_of_single rfl j q
  r1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The body's payload at row p and column q: the sum over the inner position of the loaded blocks' entries
    (the same-shape cast and the two narrowings are the identity on extended reals, and the accumulator starts at zero). -/
theorem pay3_ix2 (x0 : Vec Ideal S5000x128 .f32) (x1 : Vec Ideal S128x128 .f32) (p : Fin 5000) (q : Fin 128) :
    k3_pay1 x0 x1 (ix2 p q) = ∑ k : Fin 128, x0 (ix2 p k) * x1 (ix2 k q) := by
  unfold k3_pay1
  simp only [shapeCast_self]
  exact matmul_zero_ix2_any plainDot3 none _ _ p q

theorem zeros3 : (![0, 0] : Fin 2 → Nat) = fun _ => 0 := funext fun a => by fin_cases a <;> rfl

theorem points3 : cfg3.N = 20 := N_3

/-- The index maps at every point of the grid: point t stages row block t of the two row-tiled arrays and the
    whole second operand. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the two arrays as the region finds them. -/
theorem flushed3_eq (c : Dev nD) (t : Fin cfg3.N) :
    (dat3 (F := Ideal) V c).flushed 2 t
      = ((cfg3.win 2).blk t).view.read (Elt Ideal) (Cert.Spec.mmS (V c main_v64) (V c main_arg7)) := by
  show (cfg3.win 2).cut (grid3.coords t) ((dat3 (F := Ideal) V c).after 2 t) = _
  rw [after3_2]
  unfold out3_2
  rw [View.canon_unit_zero zeros3]
  simp only [View.ld_unit_zero (S := S5000x128) zeros3, View.ld_unit_zero (S := S128x128) zeros3]
  obtain ⟨e0, e1, e2, e3, e4, e5⟩ := idx_facts3 t
  funext j
  show k3_pay1 (iblk3 V c 0 t) (iblk3 V c 1 t) j
    = mm 100000 128 128 (V c main_v64) (V c main_arg7) (((cfg3.win 2).blk t).view.emb j)
  refine blk_mm (k3_pay1 (iblk3 V c 0 t) (iblk3 V c 1 t)) (iblk3 V c 0 t) (iblk3 V c 1 t)
    (pay3_ix2 _ _) (V c main_v64) (V c main_arg7)
    ((cfg3.win 0).blk t).view.emb ((cfg3.win 1).blk t).view.emb ((cfg3.win 2).blk t).view.emb
    (fun y => rfl) (fun y => rfl) (5000 * t.val) ?_ ?_ ?_ ?_ ?_ ?_ j
  · intro y
    show win3_0.index t (0 : Fin 2) * 5000 + 1 * (y 0).val = 5000 * t.val + (y 0).val
    rw [e0]; omega
  · intro y
    show win3_0.index t (1 : Fin 2) * 128 + 1 * (y 1).val = (y 1).val
    rw [e1]; omega
  · intro y
    show win3_1.index t (0 : Fin 2) * 128 + 1 * (y 0).val = (y 0).val
    rw [e2]; omega
  · intro y
    show win3_1.index t (1 : Fin 2) * 128 + 1 * (y 1).val = (y 1).val
    rw [e3]; omega
  · intro y
    show win3_2.index t (0 : Fin 2) * 5000 + 1 * (y 0).val = 5000 * t.val + (y 0).val
    rw [e4]; omega
  · intro y
    show win3_2.index t (1 : Fin 2) * 128 + 1 * (y 1).val = (y 1).val
    rw [e5]; omega

/-- An index of the array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v65).slice (win3_2.rect t)).set ↔ _
  rw [View.set_slice_whole, Rect.mem_set_unit]
  exact Iff.rfl

/-- Every index of the array is in the block of the point its row falls in: the twenty blocks of 5000 rows fill it. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  refine ⟨⟨(i 0).val / 5000, by rw [points3]; omega⟩, flush3_2 _, ?_⟩
  rw [mem_blk3]
  obtain ⟨-, -, -, -, e4, e5⟩ := idx_facts3 ⟨(i 0).val / 5000, by rw [points3]; omega⟩
  intro a
  match a with
  | ⟨0, _⟩ =>
    show win3_2.index _ (0 : Fin 2) * 5000 ≤ (i 0).val ∧ (i 0).val < win3_2.index _ (0 : Fin 2) * 5000 + 5000
    rw [e4]
    show (i 0).val / 5000 * 5000 ≤ (i 0).val ∧ (i 0).val < (i 0).val / 5000 * 5000 + 5000
    omega
  | ⟨1, _⟩ =>
    show win3_2.index _ (1 : Fin 2) * 128 ≤ (i 1).val ∧ (i 1).val < win3_2.index _ (1 : Fin 2) * 128 + 128
    rw [e5]
    omega

/-- The region's output array after the region: the product of its two input arrays as the region finds them. -/
theorem final3 (c : Dev nD) :
    (dat3 (F := Ideal) V c).arrAt 2 cfg3.N = Cert.Spec.mmS (V c main_v64) (V c main_arg7) :=
  (dat3 (F := Ideal) V c).arrAt_eq_of_cover 2 (Cert.Spec.mmS (V c main_v64) (V c main_arg7))
    (fun t _ => flushed3_eq V c t) cover3

end Cert.KernelIdeal.RegionValue

end
-- ==== Proof.RegionBR4.lean ====
/-
  Region 4 (bias row, then maximum with zero), at the extended reals and for any contents V of the buffers when the
  region is entered.

  The region walks the 100000 rows of its first array in twenty blocks of 5000; at point t it loads rows
  5000 t .. 5000 t + 4999 of that array and the whole 1 x 128 bias row, and stores max (a + b, 0) into the same rows of
  its output array. The formula is pointwise in the row, and the twenty blocks fill the output array, so after the
  region the output array is, entry by entry,

    out (r, c) = max (a (r, c) + b (0, c)) 0.
-/
import proofs.«125626_j17463337025614_1_alg».proof.Proof.Gen.KernelIdeal.Frame
import proofs.«125626_j17463337025614_1_alg».proof.Proof.Spec
import proofs.«125626_j17463337025614_1_alg».proof.Proof.LibRowBlocks
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload at row p and column q: the loaded block's entry plus the loaded row's entry in that column,
    then the maximum with zero (the two same-shape casts are the identity, the row is repeated down the rows). -/
theorem pay4_ix2 (x0 : Vec Ideal S5000x128 .f32) (x1 : Vec Ideal S1x128 .f32) (p : Fin 5000) (q : Fin 128) :
    k4_pay1 x0 x1 (ix2 p q) = max (x0 (ix2 p q) + x1 (ix2 (0 : Fin 1) q)) 0 := by
  unfold k4_pay1
  simp only [maximumf_apply, addf_apply, broadcast_apply, shapeCast_self, broadcastTo_1b_ab_apply]
  show max _ (Ideal.ofBits .f32 0x00000000#32) = _
  rw [Ideal.ofBits_zero_f32]

theorem zeros4 : (![0, 0] : Fin 2 → Nat) = fun _ => 0 := funext fun a => by fin_cases a <;> rfl

theorem points4 : cfg4.N = 20 := N_4

/-- The index maps at every point of the grid: point t stages row block t of the two row-tiled arrays and the
    whole bias row. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the bias-and-maximum formula of the two arrays as the region finds them. -/
theorem flushed4_eq (c : Dev nD) (t : Fin cfg4.N) :
    (dat4 (F := Ideal) V c).flushed 2 t
      = ((cfg4.win 2).blk t).view.read (Elt Ideal) (Cert.Spec.reluRow (V c main_v91) (V c main_v92)) := by
  show (cfg4.win 2).cut (grid4.coords t) ((dat4 (F := Ideal) V c).after 2 t) = _
  rw [after4_2]
  unfold out4_2
  rw [View.canon_unit_zero zeros4]
  simp only [View.ld_unit_zero (S := S5000x128) zeros4, View.ld_unit_zero (S := S1x128) zeros4]
  obtain ⟨e0, e1, e2, e3, e4, e5⟩ := idx_facts4 t
  funext j
  show k4_pay1 (iblk4 V c 0 t) (iblk4 V c 1 t) j
    = (fun a b : EReal => max (a + b) 0) (V c main_v91 (((cfg4.win 2).blk t).view.emb j))
        (V c main_v92 (ix2 (0 : Fin 1) ((((cfg4.win 2).blk t).view.emb j) 1)))
  refine blk_row (fun a b : EReal => max (a + b) 0) (k4_pay1 (iblk4 V c 0 t) (iblk4 V c 1 t))
    (iblk4 V c 0 t) (iblk4 V c 1 t) (pay4_ix2 _ _) (V c main_v91) (V c main_v92)
    ((cfg4.win 0).blk t).view.emb ((cfg4.win 1).blk t).view.emb ((cfg4.win 2).blk t).view.emb
    (fun y => rfl) (fun y => rfl) ?_ ?_ ?_ j
  · intro y a
    match a with
    | ⟨0, _⟩ =>
      show win4_0.index t (0 : Fin 2) * 5000 + 1 * (y 0).val = win4_2.index t (0 : Fin 2) * 5000 + 1 * (y 0).val
      rw [e0, e4]
    | ⟨1, _⟩ =>
      show win4_0.index t (1 : Fin 2) * 128 + 1 * (y 1).val = win4_2.index t (1 : Fin 2) * 128 + 1 * (y 1).val
      rw [e1, e5]
  · intro y
    show win4_1.index t (1 : Fin 2) * 128 + 1 * (y 1).val = (y 1).val
    rw [e3]; omega
  · intro y
    show win4_2.index t (1 : Fin 2) * 128 + 1 * (y 1).val = (y 1).val
    rw [e5]; omega

/-- An index of the array is in point t's block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v93).slice (win4_2.rect t)).set ↔ _
  rw [View.set_slice_whole, Rect.mem_set_unit]
  exact Iff.rfl

/-- Every index of the array is in the block of the point its row falls in: the twenty blocks of 5000 rows fill it. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  refine ⟨⟨(i 0).val / 5000, by rw [points4]; omega⟩, flush4_2 _, ?_⟩
  rw [mem_blk4]
  obtain ⟨-, -, -, -, e4, e5⟩ := idx_facts4 ⟨(i 0).val / 5000, by rw [points4]; omega⟩
  intro a
  match a with
  | ⟨0, _⟩ =>
    show win4_2.index _ (0 : Fin 2) * 5000 ≤ (i 0).val ∧ (i 0).val < win4_2.index _ (0 : Fin 2) * 5000 + 5000
    rw [e4]
    show (i 0).val / 5000 * 5000 ≤ (i 0).val ∧ (i 0).val < (i 0).val / 5000 * 5000 + 5000
    omega
  | ⟨1, _⟩ =>
    show win4_2.index _ (1 : Fin 2) * 128 ≤ (i 1).val ∧ (i 1).val < win4_2.index _ (1 : Fin 2) * 128 + 128
    rw [e5]
    omega

/-- The region's output array after the region: its first input array plus its bias row, then the maximum with zero. -/
theorem final4 (c : Dev nD) :
    (dat4 (F := Ideal) V c).arrAt 2 cfg4.N = Cert.Spec.reluRow (V c main_v91) (V c main_v92) :=
  (dat4 (F := Ideal) V c).arrAt_eq_of_cover 2 (Cert.Spec.reluRow (V c main_v91) (V c main_v92))
    (fun t _ => flushed4_eq V c t) cover4

end Cert.KernelIdeal.RegionValue

end
-- ==== Proof.RegionBN5.lean ====
/-
  The second normalisation region: the array it leaves is one function of the arrays it finds.

  The region cuts the rows of y : [100000,128] into 20 blocks of 5000 rows.  On each block it computes, with the mean,
  variance, scale and shift given as [1,128] rows broadcast down the block's rows,

      (scale · (y − mean)) · rsqrt (variance + ε) + shift,

  and writes the block back at the same rows of the output.  Entry by entry that is the normalisation bnRow of the five
  whole arrays read at the block's rows; since the 20 blocks tile the output, the output ends holding bnRow of the arrays.
-/
import proofs.«125626_j17463337025614_1_alg».proof.Proof.Gen.KernelIdeal.Frame
import proofs.«125626_j17463337025614_1_alg».proof.Proof.Spec
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem bnZeros5 : (![0, 0] : Fin 2 → Nat) = fun _ => 0 := funext fun a => by fin_cases a <;> rfl

/-- The block's arithmetic at row p, column q: each [1,128] row enters at its one row, column q. -/
theorem pay5_ix (v0 v5 : Vec Ideal S1x128 .f32) (v7 : Vec Ideal S5000x128 .f32) (v9 v17 : Vec Ideal S1x128 .f32)
    (p : Fin 5000) (q : Fin 128) :
    k5_pay1 v0 v5 v7 v9 v17 (ix2 p q)
      = v5 (ix2 (0 : Fin 1) q) * (v7 (ix2 p q) - v9 (ix2 (0 : Fin 1) q))
          * Ideal.rsqrt (v0 (ix2 (0 : Fin 1) q) + Cert.Spec.epsBN) + v17 (ix2 (0 : Fin 1) q) := by
  unfold k5_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The block indices over the grid: point t works on row block t of y and of the output (all columns); the four rows
    are read whole at every point. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The whole-array function the output ends holding. -/
abbrev G5 (c : Dev nD) : Cert.Spec.NK.Idx → EReal :=
  Cert.Spec.bnRow Cert.Spec.epsBN (V c main_v93) (V c main_v104) (V c main_v105) (V c main_v106) (V c main_v107)

/-- What point t writes back is block t of G5. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero bnZeros5]
  simp only [View.ld_unit_zero (S := S5000x128) bnZeros5, View.ld_unit_zero (S := S1x128) bnZeros5]
  obtain ⟨a00, a01, a10, a11, a20, a21, a30, a31, a40, a41, a50, a51⟩ := idx_facts5 t
  funext j
  obtain ⟨p, q, rfl⟩ : ∃ (p : Fin 5000) (q : Fin 128), j = ix2 p q := ⟨j 0, j 1, eq_ix2 j⟩
  show k5_pay1 (iblk5 V c 2 t) (iblk5 V c 3 t) (iblk5 V c 0 t) (iblk5 V c 1 t) (iblk5 V c 4 t) (ix2 p q)
    = G5 V c (((cfg5.win 5).blk t).view.emb (ix2 p q))
  rw [pay5_ix]
  have h0 : ((cfg5.win 0).blk t).view.emb (ix2 p q) = ((cfg5.win 5).blk t).view.emb (ix2 p q) := by
    funext a; apply Fin.ext
    match a with
    | ⟨0, _⟩ => show win5_0.index t (0 : Fin 2) * 5000 + 1 * p.val = win5_5.index t (0 : Fin 2) * 5000 + 1 * p.val; rw [a00, a50]
    | ⟨1, _⟩ => show win5_0.index t (1 : Fin 2) * 128 + 1 * q.val = win5_5.index t (1 : Fin 2) * 128 + 1 * q.val; rw [a01, a51]
  have h1 : ((cfg5.win 1).blk t).view.emb (ix2 (0 : Fin 1) q) = ix2 (0 : Fin 1) ((((cfg5.win 5).blk t).view.emb (ix2 p q)) 1) := by
    funext a; apply Fin.ext
    match a with
    | ⟨0, _⟩ => show win5_1.index t (0 : Fin 2) * 1 + 1 * 0 = 0; rw [a10]
    | ⟨1, _⟩ => show win5_1.index t (1 : Fin 2) * 128 + 1 * q.val = win5_5.index t (1 : Fin 2) * 128 + 1 * q.val; rw [a11, a51]
  have h2 : ((cfg5.win 2).blk t).view.emb (ix2 (0 : Fin 1) q) = ix2 (0 : Fin 1) ((((cfg5.win 5).blk t).view.emb (ix2 p q)) 1) := by
    funext a; apply Fin.ext
    match a with
    | ⟨0, _⟩ => show win5_2.index t (0 : Fin 2) * 1 + 1 * 0 = 0; rw [a20]
    | ⟨1, _⟩ => show win5_2.index t (1 : Fin 2) * 128 + 1 * q.val = win5_5.index t (1 : Fin 2) * 128 + 1 * q.val; rw [a21, a51]
  have h3 : ((cfg5.win 3).blk t).view.emb (ix2 (0 : Fin 1) q) = ix2 (0 : Fin 1) ((((cfg5.win 5).blk t).view.emb (ix2 p q)) 1) := by
    funext a; apply Fin.ext
    match a with
    | ⟨0, _⟩ => show win5_3.index t (0 : Fin 2) * 1 + 1 * 0 = 0; rw [a30]
    | ⟨1, _⟩ => show win5_3.index t (1 : Fin 2) * 128 + 1 * q.val = win5_5.index t (1 : Fin 2) * 128 + 1 * q.val; rw [a31, a51]
  have h4 : ((cfg5.win 4).blk t).view.emb (ix2 (0 : Fin 1) q) = ix2 (0 : Fin 1) ((((cfg5.win 5).blk t).view.emb (ix2 p q)) 1) := by
    funext a; apply Fin.ext
    match a with
    | ⟨0, _⟩ => show win5_4.index t (0 : Fin 2) * 1 + 1 * 0 = 0; rw [a40]
    | ⟨1, _⟩ => show win5_4.index t (1 : Fin 2) * 128 + 1 * q.val = win5_5.index t (1 : Fin 2) * 128 + 1 * q.val; rw [a41, a51]
  have r0 : iblk5 V c 0 t (ix2 p q) = V c main_v93 (((cfg5.win 5).blk t).view.emb (ix2 p q)) := congrArg (V c main_v93) h0
  have r1 : iblk5 V c 1 t (ix2 (0 : Fin 1) q) = V c main_v104 (ix2 (0 : Fin 1) ((((cfg5.win 5).blk t).view.emb (ix2 p q)) 1)) := congrArg (V c main_v104) h1
  have r2 : iblk5 V c 2 t (ix2 (0 : Fin 1) q) = V c main_v105 (ix2 (0 : Fin 1) ((((cfg5.win 5).blk t).view.emb (ix2 p q)) 1)) := congrArg (V c main_v105) h2
  have r3 : iblk5 V c 3 t (ix2 (0 : Fin 1) q) = V c main_v106 (ix2 (0 : Fin 1) ((((cfg5.win 5).blk t).view.emb (ix2 p q)) 1)) := congrArg (V c main_v106) h3
  have r4 : iblk5 V c 4 t (ix2 (0 : Fin 1) q) = V c main_v107 (ix2 (0 : Fin 1) ((((cfg5.win 5).blk t).view.emb (ix2 p q)) 1)) := congrArg (V c main_v107) h4
  rw [r0, r1, r2, r3, r4]
  rfl

/-- An index of the output is in point t's block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v108).slice (win5_5.rect t)).set ↔ _
  rw [View.set_slice_whole, Rect.mem_set_unit]
  exact Iff.rfl

/-- The 20 blocks tile the output: row r is in block r / 5000. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_5 _, ?_⟩
  rw [mem_blk5]
  obtain ⟨-, -, -, -, -, -, -, -, -, -, e0, e1⟩ := idx_facts5 ⟨(i 0).val / 5000, by rw [hN]; omega⟩
  intro a
  match a with
  | ⟨0, _⟩ => show win5_5.index _ (0 : Fin 2) * 5000 ≤ (i 0).val ∧ (i 0).val < win5_5.index _ (0 : Fin 2) * 5000 + 5000; rw [e0]; show (i 0).val / 5000 * 5000 ≤ (i 0).val ∧ (i 0).val < (i 0).val / 5000 * 5000 + 5000; omega
  | ⟨1, _⟩ => show win5_5.index _ (1 : Fin 2) * 128 ≤ (i 1).val ∧ (i 1).val < win5_5.index _ (1 : Fin 2) * 128 + 128; rw [e1]; omega

/-- The output after the region: the normalisation of the five arrays the region found. -/
theorem final5 (c : Dev nD) : (dat5 (F := Ideal) V c).arrAt 5 cfg5.N
    = Cert.Spec.bnRow Cert.Spec.epsBN (V c main_v93) (V c main_v104) (V c main_v105) (V c main_v106) (V c main_v107) :=
  (dat5 V c).arrAt_eq_of_cover 5 (G5 V c) (fun t _ => flushed5_eq V c t) cover5

end Cert.KernelIdeal.RegionValue

end
-- ==== Proof.RegionMM6.lean ====
/-
  Region 6 (a product), at the extended reals and for any contents V of the buffers when the region is entered.

  The region walks the 100000 rows of its first array in twenty blocks of 5000; at point t it loads rows
  5000 t .. 5000 t + 4999 of that array and the whole 128 x 128 second array, and stores their product into the same
  rows of its output array. The product of a row block is the row block of the product, and the twenty blocks fill the
  output array, so after the region the output array is the product of the two input arrays, entry by entry:

    out (r, c) = Σ_k x (r, k) · w (k, c).
-/
import proofs.«125626_j17463337025614_1_alg».proof.Proof.Gen.KernelIdeal.Frame
import proofs.«125626_j17463337025614_1_alg».proof.Proof.Spec
import proofs.«125626_j17463337025614_1_alg».proof.Proof.LibRowBlocks
import proofs.«125626_j17463337025614_1_alg».proof.Proof.LibDotIx2
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The dimension numbers are those of a plain 5000 x 128 by 128 x 128 product. -/
theorem plainDot6 : PlainDot dot_S5000x128_S128x128_S5000x128_1_0_0_1_n_n where
  rank := rfl
  size := rfl
  l0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  l1 := fun j q => dot_S5000x128_S128x128_S5000x128_1_0_0_1_n_n.lhsIdx_val_of_single rfl j q
  r0 := fun j q => dot_S5000x128_S128x128_S5000x128_1_0_0_1_n_n.rhsIdx_val_of_single rfl j q
  r1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The body's payload at row p and column q: the sum over the inner position of the loaded blocks' entries
    (the same-shape cast and the two narrowings are the identity on extended reals, and the accumulator starts at zero). -/
theorem pay6_ix2 (x0 : Vec Ideal S5000x128 .f32) (x1 : Vec Ideal S128x128 .f32) (p : Fin 5000) (q : Fin 128) :
    k6_pay1 x0 x1 (ix2 p q) = ∑ k : Fin 128, x0 (ix2 p k) * x1 (ix2 k q) := by
  unfold k6_pay1
  simp only [shapeCast_self]
  exact matmul_zero_ix2_any plainDot6 none _ _ p q

theorem zeros6 : (![0, 0] : Fin 2 → Nat) = fun _ => 0 := funext fun a => by fin_cases a <;> rfl

theorem points6 : cfg6.N = 20 := N_6

/-- The index maps at every point of the grid: point t stages row block t of the two row-tiled arrays and the
    whole second operand. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the two arrays as the region finds them. -/
theorem flushed6_eq (c : Dev nD) (t : Fin cfg6.N) :
    (dat6 (F := Ideal) V c).flushed 2 t
      = ((cfg6.win 2).blk t).view.read (Elt Ideal) (Cert.Spec.mmS (V c main_v108) (V c main_arg11)) := by
  show (cfg6.win 2).cut (grid6.coords t) ((dat6 (F := Ideal) V c).after 2 t) = _
  rw [after6_2]
  unfold out6_2
  rw [View.canon_unit_zero zeros6]
  simp only [View.ld_unit_zero (S := S5000x128) zeros6, View.ld_unit_zero (S := S128x128) zeros6]
  obtain ⟨e0, e1, e2, e3, e4, e5⟩ := idx_facts6 t
  funext j
  show k6_pay1 (iblk6 V c 0 t) (iblk6 V c 1 t) j
    = mm 100000 128 128 (V c main_v108) (V c main_arg11) (((cfg6.win 2).blk t).view.emb j)
  refine blk_mm (k6_pay1 (iblk6 V c 0 t) (iblk6 V c 1 t)) (iblk6 V c 0 t) (iblk6 V c 1 t)
    (pay6_ix2 _ _) (V c main_v108) (V c main_arg11)
    ((cfg6.win 0).blk t).view.emb ((cfg6.win 1).blk t).view.emb ((cfg6.win 2).blk t).view.emb
    (fun y => rfl) (fun y => rfl) (5000 * t.val) ?_ ?_ ?_ ?_ ?_ ?_ j
  · intro y
    show win6_0.index t (0 : Fin 2) * 5000 + 1 * (y 0).val = 5000 * t.val + (y 0).val
    rw [e0]; omega
  · intro y
    show win6_0.index t (1 : Fin 2) * 128 + 1 * (y 1).val = (y 1).val
    rw [e1]; omega
  · intro y
    show win6_1.index t (0 : Fin 2) * 128 + 1 * (y 0).val = (y 0).val
    rw [e2]; omega
  · intro y
    show win6_1.index t (1 : Fin 2) * 128 + 1 * (y 1).val = (y 1).val
    rw [e3]; omega
  · intro y
    show win6_2.index t (0 : Fin 2) * 5000 + 1 * (y 0).val = 5000 * t.val + (y 0).val
    rw [e4]; omega
  · intro y
    show win6_2.index t (1 : Fin 2) * 128 + 1 * (y 1).val = (y 1).val
    rw [e5]; omega

/-- An index of the array is in point t's block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v109).slice (win6_2.rect t)).set ↔ _
  rw [View.set_slice_whole, Rect.mem_set_unit]
  exact Iff.rfl

/-- Every index of the array is in the block of the point its row falls in: the twenty blocks of 5000 rows fill it. -/
theorem cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  refine ⟨⟨(i 0).val / 5000, by rw [points6]; omega⟩, flush6_2 _, ?_⟩
  rw [mem_blk6]
  obtain ⟨-, -, -, -, e4, e5⟩ := idx_facts6 ⟨(i 0).val / 5000, by rw [points6]; omega⟩
  intro a
  match a with
  | ⟨0, _⟩ =>
    show win6_2.index _ (0 : Fin 2) * 5000 ≤ (i 0).val ∧ (i 0).val < win6_2.index _ (0 : Fin 2) * 5000 + 5000
    rw [e4]
    show (i 0).val / 5000 * 5000 ≤ (i 0).val ∧ (i 0).val < (i 0).val / 5000 * 5000 + 5000
    omega
  | ⟨1, _⟩ =>
    show win6_2.index _ (1 : Fin 2) * 128 ≤ (i 1).val ∧ (i 1).val < win6_2.index _ (1 : Fin 2) * 128 + 128
    rw [e5]
    omega

/-- The region's output array after the region: the product of its two input arrays as the region finds them. -/
theorem final6 (c : Dev nD) :
    (dat6 (F := Ideal) V c).arrAt 2 cfg6.N = Cert.Spec.mmS (V c main_v108) (V c main_arg11) :=
  (dat6 (F := Ideal) V c).arrAt_eq_of_cover 2 (Cert.Spec.mmS (V c main_v108) (V c main_arg11))
    (fun t _ => flushed6_eq V c t) cover6

end Cert.KernelIdeal.RegionValue

end
-- ==== Proof.RegionBR7.lean ====
/-
  Region 7 (bias row, then maximum with zero), at the extended reals and for any contents V of the buffers when the
  region is entered.

  The region walks the 100000 rows of its first array in twenty blocks of 5000; at point t it loads rows
  5000 t .. 5000 t + 4999 of that array and the whole 1 x 128 bias row, and stores max (a + b, 0) into the same rows of
  its output array. The formula is pointwise in the row, and the twenty blocks fill the output array, so after the
  region the output array is, entry by entry,

    out (r, c) = max (a (r, c) + b (0, c)) 0.
-/
import proofs.«125626_j17463337025614_1_alg».proof.Proof.Gen.KernelIdeal.Frame
import proofs.«125626_j17463337025614_1_alg».proof.Proof.Spec
import proofs.«125626_j17463337025614_1_alg».proof.Proof.LibRowBlocks
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload at row p and column q: the loaded block's entry plus the loaded row's entry in that column,
    then the maximum with zero (the two same-shape casts are the identity, the row is repeated down the rows). -/
theorem pay7_ix2 (x0 : Vec Ideal S5000x128 .f32) (x1 : Vec Ideal S1x128 .f32) (p : Fin 5000) (q : Fin 128) :
    k7_pay1 x0 x1 (ix2 p q) = max (x0 (ix2 p q) + x1 (ix2 (0 : Fin 1) q)) 0 := by
  unfold k7_pay1
  simp only [maximumf_apply, addf_apply, broadcast_apply, shapeCast_self, broadcastTo_1b_ab_apply]
  show max _ (Ideal.ofBits .f32 0x00000000#32) = _
  rw [Ideal.ofBits_zero_f32]

theorem zeros7 : (![0, 0] : Fin 2 → Nat) = fun _ => 0 := funext fun a => by fin_cases a <;> rfl

theorem points7 : cfg7.N = 20 := N_7

/-- The index maps at every point of the grid: point t stages row block t of the two row-tiled arrays and the
    whole bias row. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the bias-and-maximum formula of the two arrays as the region finds them. -/
theorem flushed7_eq (c : Dev nD) (t : Fin cfg7.N) :
    (dat7 (F := Ideal) V c).flushed 2 t
      = ((cfg7.win 2).blk t).view.read (Elt Ideal) (Cert.Spec.reluRow (V c main_v135) (V c main_v136)) := by
  show (cfg7.win 2).cut (grid7.coords t) ((dat7 (F := Ideal) V c).after 2 t) = _
  rw [after7_2]
  unfold out7_2
  rw [View.canon_unit_zero zeros7]
  simp only [View.ld_unit_zero (S := S5000x128) zeros7, View.ld_unit_zero (S := S1x128) zeros7]
  obtain ⟨e0, e1, e2, e3, e4, e5⟩ := idx_facts7 t
  funext j
  show k7_pay1 (iblk7 V c 0 t) (iblk7 V c 1 t) j
    = (fun a b : EReal => max (a + b) 0) (V c main_v135 (((cfg7.win 2).blk t).view.emb j))
        (V c main_v136 (ix2 (0 : Fin 1) ((((cfg7.win 2).blk t).view.emb j) 1)))
  refine blk_row (fun a b : EReal => max (a + b) 0) (k7_pay1 (iblk7 V c 0 t) (iblk7 V c 1 t))
    (iblk7 V c 0 t) (iblk7 V c 1 t) (pay7_ix2 _ _) (V c main_v135) (V c main_v136)
    ((cfg7.win 0).blk t).view.emb ((cfg7.win 1).blk t).view.emb ((cfg7.win 2).blk t).view.emb
    (fun y => rfl) (fun y => rfl) ?_ ?_ ?_ j
  · intro y a
    match a with
    | ⟨0, _⟩ =>
      show win7_0.index t (0 : Fin 2) * 5000 + 1 * (y 0).val = win7_2.index t (0 : Fin 2) * 5000 + 1 * (y 0).val
      rw [e0, e4]
    | ⟨1, _⟩ =>
      show win7_0.index t (1 : Fin 2) * 128 + 1 * (y 1).val = win7_2.index t (1 : Fin 2) * 128 + 1 * (y 1).val
      rw [e1, e5]
  · intro y
    show win7_1.index t (1 : Fin 2) * 128 + 1 * (y 1).val = (y 1).val
    rw [e3]; omega
  · intro y
    show win7_2.index t (1 : Fin 2) * 128 + 1 * (y 1).val = (y 1).val
    rw [e5]; omega

/-- An index of the array is in point t's block iff each coordinate is in the block's range on its axis. -/
theorem mem_blk7 (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v137).slice (win7_2.rect t)).set ↔ _
  rw [View.set_slice_whole, Rect.mem_set_unit]
  exact Iff.rfl

/-- Every index of the array is in the block of the point its row falls in: the twenty blocks of 5000 rows fill it. -/
theorem cover7 (i : S100000x128.Idx) :
    ∃ t : Fin cfg7.N, (cfg7.win 2).flush t = true ∧ i ∈ ((cfg7.win 2).blk t).view.set := by
  have hi0 : (i 0).val < 100000 := (i 0).isLt
  have hi1 : (i 1).val < 128 := (i 1).isLt
  refine ⟨⟨(i 0).val / 5000, by rw [points7]; omega⟩, flush7_2 _, ?_⟩
  rw [mem_blk7]
  obtain ⟨-, -, -, -, e4, e5⟩ := idx_facts7 ⟨(i 0).val / 5000, by rw [points7]; omega⟩
  intro a
  match a with
  | ⟨0, _⟩ =>
    show win7_2.index _ (0 : Fin 2) * 5000 ≤ (i 0).val ∧ (i 0).val < win7_2.index _ (0 : Fin 2) * 5000 + 5000
    rw [e4]
    show (i 0).val / 5000 * 5000 ≤ (i 0).val ∧ (i 0).val < (i 0).val / 5000 * 5000 + 5000
    omega
  | ⟨1, _⟩ =>
    show win7_2.index _ (1 : Fin 2) * 128 ≤ (i 1).val ∧ (i 1).val < win7_2.index _ (1 : Fin 2) * 128 + 128
    rw [e5]
    omega

/-- The region's output array after the region: its first input array plus its bias row, then the maximum with zero. -/
theorem final7 (c : Dev nD) :
    (dat7 (F := Ideal) V c).arrAt 2 cfg7.N = Cert.Spec.reluRow (V c main_v135) (V c main_v136) :=
  (dat7 (F := Ideal) V c).arrAt_eq_of_cover 2 (Cert.Spec.reluRow (V c main_v135) (V c main_v136))
    (fun t _ => flushed7_eq V c t) cover7

end Cert.KernelIdeal.RegionValue

end
-- ==== Proof.RegionBN8.lean ====
/-
  The third normalisation region: the array it leaves is one function of the arrays it finds.

  The region cuts the rows of y : [100000,128] into 20 blocks of 5000 rows.  On each block it computes, with the mean,
  variance, scale and shift given as [1,128] rows broadcast down the block's rows,

      (scale · (y − mean)) · rsqrt (variance + ε) + shift,

  and writes the block back at the same rows of the output.  Entry by entry that is the normalisation bnRow of the five
  whole arrays read at the block's rows; since the 20 blocks tile the output, the output ends holding bnRow of the arrays.
-/
import proofs.«125626_j17463337025614_1_alg».proof.Proof.Gen.KernelIdeal.Frame
import proofs.«125626_j17463337025614_1_alg».proof.Proof.Spec
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem bnZeros8 : (![0, 0] : Fin 2 → Nat) = fun _ => 0 := funext fun a => by fin_cases a <;> rfl

/-- The block's arithmetic at row p, column q: each [1,128] row enters at its one row, column q. -/
theorem pay8_ix (v0 v5 : Vec Ideal S1x128 .f32) (v7 : Vec Ideal S5000x128 .f32) (v9 v17 : Vec Ideal S1x128 .f32)
    (p : Fin 5000) (q : Fin 128) :
    k8_pay1 v0 v5 v7 v9 v17 (ix2 p q)
      = v5 (ix2 (0 : Fin 1) q) * (v7 (ix2 p q) - v9 (ix2 (0 : Fin 1) q))
          * Ideal.rsqrt (v0 (ix2 (0 : Fin 1) q) + Cert.Spec.epsBN) + v17 (ix2 (0 : Fin 1) q) := by
  unfold k8_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The block indices over the grid: point t works on row block t of y and of the output (all columns); the four rows
    are read whole at every point. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The whole-array function the output ends holding. -/
abbrev G8 (c : Dev nD) : Cert.Spec.NK.Idx → EReal :=
  Cert.Spec.bnRow Cert.Spec.epsBN (V c main_v137) (V c main_v148) (V c main_v149) (V c main_v150) (V c main_v151)

/-- What point t writes back is block t of G8. -/
theorem flushed8_eq (c : Dev nD) (t : Fin cfg8.N) :
    (dat8 V c).flushed 5 t = ((cfg8.win 5).blk t).view.read (Elt Ideal) (G8 V c) := by
  show (cfg8.win 5).cut (grid8.coords t) ((dat8 V c).after 5 t) = _
  rw [after8_5]
  unfold out8_5
  rw [View.canon_unit_zero bnZeros8]
  simp only [View.ld_unit_zero (S := S5000x128) bnZeros8, View.ld_unit_zero (S := S1x128) bnZeros8]
  obtain ⟨a00, a01, a10, a11, a20, a21, a30, a31, a40, a41, a50, a51⟩ := idx_facts8 t
  funext j
  obtain ⟨p, q, rfl⟩ : ∃ (p : Fin 5000) (q : Fin 128), j = ix2 p q := ⟨j 0, j 1, eq_ix2 j⟩
  show k8_pay1 (iblk8 V c 2 t) (iblk8 V c 3 t) (iblk8 V c 0 t) (iblk8 V c 1 t) (iblk8 V c 4 t) (ix2 p q)
    = G8 V c (((cfg8.win 5).blk t).view.emb (ix2 p q))
  rw [pay8_ix]
  have h0 : ((cfg8.win 0).blk t).view.emb (ix2 p q) = ((cfg8.win 5).blk t).view.emb (ix2 p q) := by
    funext a; apply Fin.ext
    match a with
    | ⟨0, _⟩ => show win8_0.index t (0 : Fin 2) * 5000 + 1 * p.val = win8_5.index t (0 : Fin 2) * 5000 + 1 * p.val; rw [a00, a50]
    | ⟨1, _⟩ => show win8_0.index t (1 : Fin 2) * 128 + 1 * q.val = win8_5.index t (1 : Fin 2) * 128 + 1 * q.val; rw [a01, a51]
  have h1 : ((cfg8.win 1).blk t).view.emb (ix2 (0 : Fin 1) q) = ix2 (0 : Fin 1) ((((cfg8.win 5).blk t).view.emb (ix2 p q)) 1) := by
    funext a; apply Fin.ext
    match a with
    | ⟨0, _⟩ => show win8_1.index t (0 : Fin 2) * 1 + 1 * 0 = 0; rw [a10]
    | ⟨1, _⟩ => show win8_1.index t (1 : Fin 2) * 128 + 1 * q.val = win8_5.index t (1 : Fin 2) * 128 + 1 * q.val; rw [a11, a51]
  have h2 : ((cfg8.win 2).blk t).view.emb (ix2 (0 : Fin 1) q) = ix2 (0 : Fin 1) ((((cfg8.win 5).blk t).view.emb (ix2 p q)) 1) := by
    funext a; apply Fin.ext
    match a with
    | ⟨0, _⟩ => show win8_2.index t (0 : Fin 2) * 1 + 1 * 0 = 0; rw [a20]
    | ⟨1, _⟩ => show win8_2.index t (1 : Fin 2) * 128 + 1 * q.val = win8_5.index t (1 : Fin 2) * 128 + 1 * q.val; rw [a21, a51]
  have h3 : ((cfg8.win 3).blk t).view.emb (ix2 (0 : Fin 1) q) = ix2 (0 : Fin 1) ((((cfg8.win 5).blk t).view.emb (ix2 p q)) 1) := by
    funext a; apply Fin.ext
    match a with
    | ⟨0, _⟩ => show win8_3.index t (0 : Fin 2) * 1 + 1 * 0 = 0; rw [a30]
    | ⟨1, _⟩ => show win8_3.index t (1 : Fin 2) * 128 + 1 * q.val = win8_5.index t (1 : Fin 2) * 128 + 1 * q.val; rw [a31, a51]
  have h4 : ((cfg8.win 4).blk t).view.emb (ix2 (0 : Fin 1) q) = ix2 (0 : Fin 1) ((((cfg8.win 5).blk t).view.emb (ix2 p q)) 1) := by
    funext a; apply Fin.ext
    match a with
    | ⟨0, _⟩ => show win8_4.index t (0 : Fin 2) * 1 + 1 * 0 = 0; rw [a40]
    | ⟨1, _⟩ => show win8_4.index t (1 : Fin 2) * 128 + 1 * q.val = win8_5.index t (1 : Fin 2) * 128 + 1 * q.val; rw [a41, a51]
  have r0 : iblk8 V c 0 t (ix2 p q) = V c main_v137 (((cfg8.win 5).blk t).view.emb (ix2 p q)) := congrArg (V c main_v137) h0
  have r1 : iblk8 V c 1 t (ix2 (0 : Fin 1) q) = V c main_v148 (ix2 (0 : Fin 1) ((((cfg8.win 5).blk t).view.emb (ix2 p q)) 1)) := congrArg (V c main_v148) h1
  have r2 : iblk8 V c 2 t (ix2 (0 : Fin 1) q) = V c main_v149 (ix2 (0 : Fin 1) ((((cfg8.win 5).blk t).view.emb (ix2 p q)) 1)) := congrArg (V c main_v149) h2
  have r3 : iblk8 V c 3 t (ix2 (0 : Fin 1) q) = V c main_v150 (ix2 (0 : Fin 1) ((((cfg8.win 5).blk t).view.emb (ix2 p q)) 1)) := congrArg (V c main_v150) h3
  have r4 : iblk8 V c 4 t (ix2 (0 : Fin 1) q) = V c main_v151 (ix2 (0 : Fin 1) ((((cfg8.win 5).blk t).view.emb (ix2 p q)) 1)) := congrArg (V c main_v151) h4
  rw [r0, r1, r2, r3, r4]
  rfl

/-- An index of the output is in point t's block iff each coordinate is in the block's range on its axis. -/
theorem mem_blk8 (t : Fin cfg8.N) (i : S100000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v152).slice (win8_5.rect t)).set ↔ _
  rw [View.set_slice_whole, Rect.mem_set_unit]
  exact Iff.rfl

/-- The 20 blocks tile the output: row r is in block r / 5000. -/
theorem cover8 (i : S100000x128.Idx) : ∃ t : Fin cfg8.N, (cfg8.win 5).flush t = true ∧ i ∈ ((cfg8.win 5).blk t).view.set := by
  have hi0 : (i 0).val < 100000 := (i 0).isLt
  have hi1 : (i 1).val < 128 := (i 1).isLt
  have hN : cfg8.N = 20 := N_8
  refine ⟨⟨(i 0).val / 5000, by rw [hN]; omega⟩, flush8_5 _, ?_⟩
  rw [mem_blk8]
  obtain ⟨-, -, -, -, -, -, -, -, -, -, e0, e1⟩ := idx_facts8 ⟨(i 0).val / 5000, by rw [hN]; omega⟩
  intro a
  match a with
  | ⟨0, _⟩ => show win8_5.index _ (0 : Fin 2) * 5000 ≤ (i 0).val ∧ (i 0).val < win8_5.index _ (0 : Fin 2) * 5000 + 5000; rw [e0]; show (i 0).val / 5000 * 5000 ≤ (i 0).val ∧ (i 0).val < (i 0).val / 5000 * 5000 + 5000; omega
  | ⟨1, _⟩ => show win8_5.index _ (1 : Fin 2) * 128 ≤ (i 1).val ∧ (i 1).val < win8_5.index _ (1 : Fin 2) * 128 + 128; rw [e1]; omega

/-- The output after the region: the normalisation of the five arrays the region found. -/
theorem final8 (c : Dev nD) : (dat8 (F := Ideal) V c).arrAt 5 cfg8.N
    = Cert.Spec.bnRow Cert.Spec.epsBN (V c main_v137) (V c main_v148) (V c main_v149) (V c main_v150) (V c main_v151) :=
  (dat8 V c).arrAt_eq_of_cover 5 (G8 V c) (fun t _ => flushed8_eq V c t) cover8

end Cert.KernelIdeal.RegionValue

end
-- ==== Proof.KTrace.lean ====
/-
  The result array of the idealized program at the last segment boundary, as a function of the launch contents of the
  arguments.

  Walking back from the last boundary: a tiled region's output array is one whole-array function of the region's
  input arrays as the region found them (the product, the biased maximum with zero, the normalisation); a stretch of
  host operations gives each buffer it writes as the composition of its operations over the contents at the stretch's
  entry; and a buffer that a segment does not write holds after it what it held before. Layer by layer this reads the
  result as the layer function of the previous layer's result, of the layer's own weight, bias, scale and shift
  arguments, and of the node list, hyperedge list, inverse degrees and inverse sizes, which the first stretch computes
  from the incidence pairs and no later segment writes.
-/
import proofs.«125626_j17463337025614_1_alg».proof.Proof.Gen.KernelIdeal.Frame
import proofs.«125626_j17463337025614_1_alg».proof.Proof.KChain
import proofs.«125626_j17463337025614_1_alg».proof.Proof.RegionMM0
import proofs.«125626_j17463337025614_1_alg».proof.Proof.RegionBR1
import proofs.«125626_j17463337025614_1_alg».proof.Proof.RegionBN2
import proofs.«125626_j17463337025614_1_alg».proof.Proof.RegionMM3
import proofs.«125626_j17463337025614_1_alg».proof.Proof.RegionBR4
import proofs.«125626_j17463337025614_1_alg».proof.Proof.RegionBN5
import proofs.«125626_j17463337025614_1_alg».proof.Proof.RegionMM6
import proofs.«125626_j17463337025614_1_alg».proof.Proof.RegionBR7
import proofs.«125626_j17463337025614_1_alg».proof.Proof.RegionBN8
import Idealize.ShloMosaic.Lib.StableHlo.Run

set_option maxRecDepth 16384

noncomputable section

namespace Cert.KernelIdeal.KTrace

open Cert.KernelIdeal Cert.KernelIdeal.Gen Cert.KernelIdeal.KChain Cert.KernelIdeal.RegionValue
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Layer 1: from the contents at region 0's entry to the contents at region 2's exit -/

/-- The stretch between the product and the bias: the aggregation of the product, and the bias as a row. -/
theorem s1a_go (Wx : Valuation τ sig (Elt Ideal)) :
    StableHlo.after (hostOps1 (F := Ideal)) Wx (Proc.devRef .tc main_v47)
      = graphK (Wx (Proc.devRef .tc main_v21)) (Wx (Proc.devRef .tc main_v1)) (Wx (Proc.devRef .tc main_v3)) (Wx (Proc.devRef .tc main_v15)) (Wx (Proc.devRef .tc main_v20)) := by
  after_results_simp <;> rfl
theorem s1a_b (Wx : Valuation τ sig (Elt Ideal)) :
    StableHlo.after (hostOps1 (F := Ideal)) Wx (Proc.devRef .tc main_v48) = rowK (Wx (Proc.devRef .tc main_arg4)) := by
  after_results_simp <;> rfl

/-- The stretch between the bias and the normalisation: the column statistics and the affine pair, as rows. -/
theorem s1b_y (Wx : Valuation τ sig (Elt Ideal)) :
    StableHlo.after (hostOps2 (F := Ideal)) Wx (Proc.devRef .tc main_v49) = Wx (Proc.devRef .tc main_v49) := by
  after_results_simp <;> rfl
theorem s1b_mean (Wx : Valuation τ sig (Elt Ideal)) :
    StableHlo.after (hostOps2 (F := Ideal)) Wx (Proc.devRef .tc main_v60) = rowK (meanK (Wx (Proc.devRef .tc main_v49))) := by
  after_results_simp <;> rfl
theorem s1b_var (Wx : Valuation τ sig (Elt Ideal)) :
    StableHlo.after (hostOps2 (F := Ideal)) Wx (Proc.devRef .tc main_v61) = rowK (varK (Wx (Proc.devRef .tc main_v49))) := by
  after_results_simp <;> rfl
theorem s1b_g (Wx : Valuation τ sig (Elt Ideal)) :
    StableHlo.after (hostOps2 (F := Ideal)) Wx (Proc.devRef .tc main_v62) = rowK (Wx (Proc.devRef .tc main_arg5)) := by
  after_results_simp <;> rfl
theorem s1b_beta (Wx : Valuation τ sig (Elt Ideal)) :
    StableHlo.after (hostOps2 (F := Ideal)) Wx (Proc.devRef .tc main_v63) = rowK (Wx (Proc.devRef .tc main_arg6)) := by
  after_results_simp <;> rfl

theorem s1a_g (Wx : Valuation τ sig (Elt Ideal)) :
    StableHlo.after (hostOps1 (F := Ideal)) Wx (Proc.devRef .tc main_arg5) = Wx (Proc.devRef .tc main_arg5) := by
  after_results_simp <;> rfl
theorem s1a_beta (Wx : Valuation τ sig (Elt Ideal)) :
    StableHlo.after (hostOps1 (F := Ideal)) Wx (Proc.devRef .tc main_arg6) = Wx (Proc.devRef .tc main_arg6) := by
  after_results_simp <;> rfl

/-- What the bias region of layer 1 leaves: the maximum with zero of the aggregated product plus the bias. -/
theorem relu1 (c : Dev nD) : W7 m ρ c (Proc.devRef .tc main_v49) = (Cert.Spec.reluRow (graphK (Cert.Spec.mmS (W4 m ρ c (Proc.devRef .tc main_arg1)) (W4 m ρ c (Proc.devRef .tc main_arg3))) (W4 m ρ c (Proc.devRef .tc main_v1)) (W4 m ρ c (Proc.devRef .tc main_v3)) (W4 m ρ c (Proc.devRef .tc main_v15)) (W4 m ρ c (Proc.devRef .tc main_v20))) (rowK (W4 m ρ c (Proc.devRef .tc main_arg4)))) := by
  have h : W7 m ρ c (Proc.devRef .tc main_v49) = (dat1 (V6 m ρ) c).arrAt 2 cfg1.N := W7_arr m ρ c 2
  have a : V6 m ρ c main_v47 = graphK (W5 m ρ c (Proc.devRef .tc main_v21)) (W5 m ρ c (Proc.devRef .tc main_v1)) (W5 m ρ c (Proc.devRef .tc main_v3)) (W5 m ρ c (Proc.devRef .tc main_v15)) (W5 m ρ c (Proc.devRef .tc main_v20)) := s1a_go (W5 m ρ c)
  have b : V6 m ρ c main_v48 = rowK (W5 m ρ c (Proc.devRef .tc main_arg4)) := s1a_b (W5 m ρ c)
  have h0 : W5 m ρ c (Proc.devRef .tc main_v21) = (dat0 (V4 m ρ) c).arrAt 2 cfg0.N := W5_arr m ρ c 2
  rw [h, final1 (V6 m ρ) c, a, b, h0, final0 (V4 m ρ) c,
    W5_of_ne m ρ c main_v1 (by decide), W5_of_ne m ρ c main_v3 (by decide), W5_of_ne m ρ c main_v15 (by decide),
    W5_of_ne m ρ c main_v20 (by decide), W5_of_ne m ρ c main_arg4 (by decide)]

/-- What layer 1 leaves in its output array, from the contents at its entry. -/
theorem layer1 (c : Dev nD) : W9 m ρ c (Proc.devRef .tc main_v64)
    = layerK (W4 m ρ c (Proc.devRef .tc main_arg1)) (W4 m ρ c (Proc.devRef .tc main_arg3)) (W4 m ρ c (Proc.devRef .tc main_arg4)) (W4 m ρ c (Proc.devRef .tc main_arg5)) (W4 m ρ c (Proc.devRef .tc main_arg6)) (W4 m ρ c (Proc.devRef .tc main_v1)) (W4 m ρ c (Proc.devRef .tc main_v3)) (W4 m ρ c (Proc.devRef .tc main_v15)) (W4 m ρ c (Proc.devRef .tc main_v20)) := by
  have h : W9 m ρ c (Proc.devRef .tc main_v64) = (dat2 (V8 m ρ) c).arrAt 5 cfg2.N := W9_arr m ρ c 5
  have e0 : V8 m ρ c main_v49 = (W7 m ρ c (Proc.devRef .tc main_v49)) := s1b_y (W7 m ρ c)
  have e1 : V8 m ρ c main_v60 = rowK (meanK (W7 m ρ c (Proc.devRef .tc main_v49))) := s1b_mean (W7 m ρ c)
  have e2 : V8 m ρ c main_v61 = rowK (varK (W7 m ρ c (Proc.devRef .tc main_v49))) := s1b_var (W7 m ρ c)
  have e3 : V8 m ρ c main_v62 = rowK (W7 m ρ c (Proc.devRef .tc main_arg5)) := s1b_g (W7 m ρ c)
  have e4 : V8 m ρ c main_v63 = rowK (W7 m ρ c (Proc.devRef .tc main_arg6)) := s1b_beta (W7 m ρ c)
  have pg : (W7 m ρ c (Proc.devRef .tc main_arg5)) = (W4 m ρ c (Proc.devRef .tc main_arg5)) :=
    (W7_of_ne m ρ c main_arg5 (by decide)).trans ((s1a_g (W5 m ρ c)).trans (W5_of_ne m ρ c main_arg5 (by decide)))
  have pb : (W7 m ρ c (Proc.devRef .tc main_arg6)) = (W4 m ρ c (Proc.devRef .tc main_arg6)) :=
    (W7_of_ne m ρ c main_arg6 (by decide)).trans ((s1a_beta (W5 m ρ c)).trans (W5_of_ne m ρ c main_arg6 (by decide)))
  rw [h, final2 (V8 m ρ) c, e0, e1, e2, e3, e4, pg, pb, relu1 m ρ c]
  rfl

/-! ## Layer 2: from the contents at region 3's entry to the contents at region 5's exit -/

/-- The stretch between the product and the bias: the aggregation of the product, and the bias as a row. -/
theorem s2a_go (Wx : Valuation τ sig (Elt Ideal)) :
    StableHlo.after (hostOps4 (F := Ideal)) Wx (Proc.devRef .tc main_v91)
      = graphK (Wx (Proc.devRef .tc main_v65)) (Wx (Proc.devRef .tc main_v1)) (Wx (Proc.devRef .tc main_v3)) (Wx (Proc.devRef .tc main_v15)) (Wx (Proc.devRef .tc main_v20)) := by
  after_results_simp <;> rfl
theorem s2a_b (Wx : Valuation τ sig (Elt Ideal)) :
    StableHlo.after (hostOps4 (F := Ideal)) Wx (Proc.devRef .tc main_v92) = rowK (Wx (Proc.devRef .tc main_arg8)) := by
  after_results_simp <;> rfl

/-- The stretch between the bias and the normalisation: the column statistics and the affine pair, as rows. -/
theorem s2b_y (Wx : Valuation τ sig (Elt Ideal)) :
    StableHlo.after (hostOps5 (F := Ideal)) Wx (Proc.devRef .tc main_v93) = Wx (Proc.devRef .tc main_v93) := by
  after_results_simp <;> rfl
theorem s2b_mean (Wx : Valuation τ sig (Elt Ideal)) :
    StableHlo.after (hostOps5 (F := Ideal)) Wx (Proc.devRef .tc main_v104) = rowK (meanK (Wx (Proc.devRef .tc main_v93))) := by
  after_results_simp <;> rfl
theorem s2b_var (Wx : Valuation τ sig (Elt Ideal)) :
    StableHlo.after (hostOps5 (F := Ideal)) Wx (Proc.devRef .tc main_v105) = rowK (varK (Wx (Proc.devRef .tc main_v93))) := by
  after_results_simp <;> rfl
theorem s2b_g (Wx : Valuation τ sig (Elt Ideal)) :
    StableHlo.after (hostOps5 (F := Ideal)) Wx (Proc.devRef .tc main_v106) = rowK (Wx (Proc.devRef .tc main_arg9)) := by
  after_results_simp <;> rfl
theorem s2b_beta (Wx : Valuation τ sig (Elt Ideal)) :
    StableHlo.after (hostOps5 (F := Ideal)) Wx (Proc.devRef .tc main_v107) = rowK (Wx (Proc.devRef .tc main_arg10)) := by
  after_results_simp <;> rfl

theorem s2a_g (Wx : Valuation τ sig (Elt Ideal)) :
    StableHlo.after (hostOps4 (F := Ideal)) Wx (Proc.devRef .tc main_arg9) = Wx (Proc.devRef .tc main_arg9) := by
  after_results_simp <;> rfl
theorem s2a_beta (Wx : Valuation τ sig (Elt Ideal)) :
    StableHlo.after (hostOps4 (F := Ideal)) Wx (Proc.devRef .tc main_arg10) = Wx (Proc.devRef .tc main_arg10) := by
  after_results_simp <;> rfl

/-- What the bias region of layer 2 leaves: the maximum with zero of the aggregated product plus the bias. -/
theorem relu2 (c : Dev nD) : W12 m ρ c (Proc.devRef .tc main_v93) = (Cert.Spec.reluRow (graphK (Cert.Spec.mmS (W9 m ρ c (Proc.devRef .tc main_v64)) (W9 m ρ c (Proc.devRef .tc main_arg7))) (W9 m ρ c (Proc.devRef .tc main_v1)) (W9 m ρ c (Proc.devRef .tc main_v3)) (W9 m ρ c (Proc.devRef .tc main_v15)) (W9 m ρ c (Proc.devRef .tc main_v20))) (rowK (W9 m ρ c (Proc.devRef .tc main_arg8)))) := by
  have h : W12 m ρ c (Proc.devRef .tc main_v93) = (dat4 (V11 m ρ) c).arrAt 2 cfg4.N := W12_arr m ρ c 2
  have a : V11 m ρ c main_v91 = graphK (W10 m ρ c (Proc.devRef .tc main_v65)) (W10 m ρ c (Proc.devRef .tc main_v1)) (W10 m ρ c (Proc.devRef .tc main_v3)) (W10 m ρ c (Proc.devRef .tc main_v15)) (W10 m ρ c (Proc.devRef .tc main_v20)) := s2a_go (W10 m ρ c)
  have b : V11 m ρ c main_v92 = rowK (W10 m ρ c (Proc.devRef .tc main_arg8)) := s2a_b (W10 m ρ c)
  have h0 : W10 m ρ c (Proc.devRef .tc main_v65) = (dat3 (V9 m ρ) c).arrAt 2 cfg3.N := W10_arr m ρ c 2
  rw [h, final4 (V11 m ρ) c, a, b, h0, final3 (V9 m ρ) c,
    W10_of_ne m ρ c main_v1 (by decide), W10_of_ne m ρ c main_v3 (by decide), W10_of_ne m ρ c main_v15 (by decide),
    W10_of_ne m ρ c main_v20 (by decide), W10_of_ne m ρ c main_arg8 (by decide)]

/-- What layer 2 leaves in its output array, from the contents at its entry. -/
theorem layer2 (c : Dev nD) : W14 m ρ c (Proc.devRef .tc main_v108)
    = layerK (W9 m ρ c (Proc.devRef .tc main_v64)) (W9 m ρ c (Proc.devRef .tc main_arg7)) (W9 m ρ c (Proc.devRef .tc main_arg8)) (W9 m ρ c (Proc.devRef .tc main_arg9)) (W9 m ρ c (Proc.devRef .tc main_arg10)) (W9 m ρ c (Proc.devRef .tc main_v1)) (W9 m ρ c (Proc.devRef .tc main_v3)) (W9 m ρ c (Proc.devRef .tc main_v15)) (W9 m ρ c (Proc.devRef .tc main_v20)) := by
  have h : W14 m ρ c (Proc.devRef .tc main_v108) = (dat5 (V13 m ρ) c).arrAt 5 cfg5.N := W14_arr m ρ c 5
  have e0 : V13 m ρ c main_v93 = (W12 m ρ c (Proc.devRef .tc main_v93)) := s2b_y (W12 m ρ c)
  have e1 : V13 m ρ c main_v104 = rowK (meanK (W12 m ρ c (Proc.devRef .tc main_v93))) := s2b_mean (W12 m ρ c)
  have e2 : V13 m ρ c main_v105 = rowK (varK (W12 m ρ c (Proc.devRef .tc main_v93))) := s2b_var (W12 m ρ c)
  have e3 : V13 m ρ c main_v106 = rowK (W12 m ρ c (Proc.devRef .tc main_arg9)) := s2b_g (W12 m ρ c)
  have e4 : V13 m ρ c main_v107 = rowK (W12 m ρ c (Proc.devRef .tc main_arg10)) := s2b_beta (W12 m ρ c)
  have pg : (W12 m ρ c (Proc.devRef .tc main_arg9)) = (W9 m ρ c (Proc.devRef .tc main_arg9)) :=
    (W12_of_ne m ρ c main_arg9 (by decide)).trans ((s2a_g (W10 m ρ c)).trans (W10_of_ne m ρ c main_arg9 (by decide)))
  have pb : (W12 m ρ c (Proc.devRef .tc main_arg10)) = (W9 m ρ c (Proc.devRef .tc main_arg10)) :=
    (W12_of_ne m ρ c main_arg10 (by decide)).trans ((s2a_beta (W10 m ρ c)).trans (W10_of_ne m ρ c main_arg10 (by decide)))
  rw [h, final5 (V13 m ρ) c, e0, e1, e2, e3, e4, pg, pb, relu2 m ρ c]
  rfl

/-! ## Layer 3: from the contents at region 6's entry to the contents at region 8's exit -/

/-- The stretch between the product and the bias: the aggregation of the product, and the bias as a row. -/
theorem s3a_go (Wx : Valuation τ sig (Elt Ideal)) :
    StableHlo.after (hostOps7 (F := Ideal)) Wx (Proc.devRef .tc main_v135)
      = graphK (Wx (Proc.devRef .tc main_v109)) (Wx (Proc.devRef .tc main_v1)) (Wx (Proc.devRef .tc main_v3)) (Wx (Proc.devRef .tc main_v15)) (Wx (Proc.devRef .tc main_v20)) := by
  after_results_simp <;> rfl
theorem s3a_b (Wx : Valuation τ sig (Elt Ideal)) :
    StableHlo.after (hostOps7 (F := Ideal)) Wx (Proc.devRef .tc main_v136) = rowK (Wx (Proc.devRef .tc main_arg12)) := by
  after_results_simp <;> rfl

/-- The stretch between the bias and the normalisation: the column statistics and the affine pair, as rows. -/
theorem s3b_y (Wx : Valuation τ sig (Elt Ideal)) :
    StableHlo.after (hostOps8 (F := Ideal)) Wx (Proc.devRef .tc main_v137) = Wx (Proc.devRef .tc main_v137) := by
  after_results_simp <;> rfl
theorem s3b_mean (Wx : Valuation τ sig (Elt Ideal)) :
    StableHlo.after (hostOps8 (F := Ideal)) Wx (Proc.devRef .tc main_v148) = rowK (meanK (Wx (Proc.devRef .tc main_v137))) := by
  after_results_simp <;> rfl
theorem s3b_var (Wx : Valuation τ sig (Elt Ideal)) :
    StableHlo.after (hostOps8 (F := Ideal)) Wx (Proc.devRef .tc main_v149) = rowK (varK (Wx (Proc.devRef .tc main_v137))) := by
  after_results_simp <;> rfl
theorem s3b_g (Wx : Valuation τ sig (Elt Ideal)) :
    StableHlo.after (hostOps8 (F := Ideal)) Wx (Proc.devRef .tc main_v150) = rowK (Wx (Proc.devRef .tc main_arg13)) := by
  after_results_simp <;> rfl
theorem s3b_beta (Wx : Valuation τ sig (Elt Ideal)) :
    StableHlo.after (hostOps8 (F := Ideal)) Wx (Proc.devRef .tc main_v151) = rowK (Wx (Proc.devRef .tc main_arg14)) := by
  after_results_simp <;> rfl

theorem s3a_g (Wx : Valuation τ sig (Elt Ideal)) :
    StableHlo.after (hostOps7 (F := Ideal)) Wx (Proc.devRef .tc main_arg13) = Wx (Proc.devRef .tc main_arg13) := by
  after_results_simp <;> rfl
theorem s3a_beta (Wx : Valuation τ sig (Elt Ideal)) :
    StableHlo.after (hostOps7 (F := Ideal)) Wx (Proc.devRef .tc main_arg14) = Wx (Proc.devRef .tc main_arg14) := by
  after_results_simp <;> rfl

/-- What the bias region of layer 3 leaves: the maximum with zero of the aggregated product plus the bias. -/
theorem relu3 (c : Dev nD) : W17 m ρ c (Proc.devRef .tc main_v137) = (Cert.Spec.reluRow (graphK (Cert.Spec.mmS (W14 m ρ c (Proc.devRef .tc main_v108)) (W14 m ρ c (Proc.devRef .tc main_arg11))) (W14 m ρ c (Proc.devRef .tc main_v1)) (W14 m ρ c (Proc.devRef .tc main_v3)) (W14 m ρ c (Proc.devRef .tc main_v15)) (W14 m ρ c (Proc.devRef .tc main_v20))) (rowK (W14 m ρ c (Proc.devRef .tc main_arg12)))) := by
  have h : W17 m ρ c (Proc.devRef .tc main_v137) = (dat7 (V16 m ρ) c).arrAt 2 cfg7.N := W17_arr m ρ c 2
  have a : V16 m ρ c main_v135 = graphK (W15 m ρ c (Proc.devRef .tc main_v109)) (W15 m ρ c (Proc.devRef .tc main_v1)) (W15 m ρ c (Proc.devRef .tc main_v3)) (W15 m ρ c (Proc.devRef .tc main_v15)) (W15 m ρ c (Proc.devRef .tc main_v20)) := s3a_go (W15 m ρ c)
  have b : V16 m ρ c main_v136 = rowK (W15 m ρ c (Proc.devRef .tc main_arg12)) := s3a_b (W15 m ρ c)
  have h0 : W15 m ρ c (Proc.devRef .tc main_v109) = (dat6 (V14 m ρ) c).arrAt 2 cfg6.N := W15_arr m ρ c 2
  rw [h, final7 (V16 m ρ) c, a, b, h0, final6 (V14 m ρ) c,
    W15_of_ne m ρ c main_v1 (by decide), W15_of_ne m ρ c main_v3 (by decide), W15_of_ne m ρ c main_v15 (by decide),
    W15_of_ne m ρ c main_v20 (by decide), W15_of_ne m ρ c main_arg12 (by decide)]

/-- What layer 3 leaves in its output array, from the contents at its entry. -/
theorem layer3 (c : Dev nD) : W19 m ρ c (Proc.devRef .tc main_v152)
    = layerK (W14 m ρ c (Proc.devRef .tc main_v108)) (W14 m ρ c (Proc.devRef .tc main_arg11)) (W14 m ρ c (Proc.devRef .tc main_arg12)) (W14 m ρ c (Proc.devRef .tc main_arg13)) (W14 m ρ c (Proc.devRef .tc main_arg14)) (W14 m ρ c (Proc.devRef .tc main_v1)) (W14 m ρ c (Proc.devRef .tc main_v3)) (W14 m ρ c (Proc.devRef .tc main_v15)) (W14 m ρ c (Proc.devRef .tc main_v20)) := by
  have h : W19 m ρ c (Proc.devRef .tc main_v152) = (dat8 (V18 m ρ) c).arrAt 5 cfg8.N := W19_arr m ρ c 5
  have e0 : V18 m ρ c main_v137 = (W17 m ρ c (Proc.devRef .tc main_v137)) := s3b_y (W17 m ρ c)
  have e1 : V18 m ρ c main_v148 = rowK (meanK (W17 m ρ c (Proc.devRef .tc main_v137))) := s3b_mean (W17 m ρ c)
  have e2 : V18 m ρ c main_v149 = rowK (varK (W17 m ρ c (Proc.devRef .tc main_v137))) := s3b_var (W17 m ρ c)
  have e3 : V18 m ρ c main_v150 = rowK (W17 m ρ c (Proc.devRef .tc main_arg13)) := s3b_g (W17 m ρ c)
  have e4 : V18 m ρ c main_v151 = rowK (W17 m ρ c (Proc.devRef .tc main_arg14)) := s3b_beta (W17 m ρ c)
  have pg : (W17 m ρ c (Proc.devRef .tc main_arg13)) = (W14 m ρ c (Proc.devRef .tc main_arg13)) :=
    (W17_of_ne m ρ c main_arg13 (by decide)).trans ((s3a_g (W15 m ρ c)).trans (W15_of_ne m ρ c main_arg13 (by decide)))
  have pb : (W17 m ρ c (Proc.devRef .tc main_arg14)) = (W14 m ρ c (Proc.devRef .tc main_arg14)) :=
    (W17_of_ne m ρ c main_arg14 (by decide)).trans ((s3a_beta (W15 m ρ c)).trans (W15_of_ne m ρ c main_arg14 (by decide)))
  rw [h, final8 (V18 m ρ) c, e0, e1, e2, e3, e4, pg, pb, relu3 m ρ c]
  rfl

/-- A buffer that no segment of layer 1 writes holds at the layer's exit what it held at its entry. -/
theorem pass1 (c : Dev nD) (b : Ref sig .tc) (h0 : ∀ w, Pipeline.arrRef spec0 w ≠ b) (h1 : ∀ w, Pipeline.arrRef spec1 w ≠ b)
    (h2 : ∀ w, Pipeline.arrRef spec2 w ≠ b)
    (e1 : ∀ Wx : Valuation τ sig (Elt Ideal), StableHlo.after (hostOps1 (F := Ideal)) Wx (Proc.devRef .tc b) = Wx (Proc.devRef .tc b))
    (e2 : ∀ Wx : Valuation τ sig (Elt Ideal), StableHlo.after (hostOps2 (F := Ideal)) Wx (Proc.devRef .tc b) = Wx (Proc.devRef .tc b)) :
    W9 m ρ c (Proc.devRef .tc b) = W4 m ρ c (Proc.devRef .tc b) :=
  (W9_of_ne m ρ c b h2).trans ((e2 (W7 m ρ c)).trans ((W7_of_ne m ρ c b h1).trans ((e1 (W5 m ρ c)).trans (W5_of_ne m ρ c b h0))))
theorem pass1_main_arg7 (c : Dev nD) : W9 m ρ c (Proc.devRef .tc main_arg7) = W4 m ρ c (Proc.devRef .tc main_arg7) :=
  pass1 m ρ c main_arg7 (by decide) (by decide) (by decide) (fun _ => by after_results_simp <;> rfl) (fun _ => by after_results_simp <;> rfl)
theorem pass1_main_arg8 (c : Dev nD) : W9 m ρ c (Proc.devRef .tc main_arg8) = W4 m ρ c (Proc.devRef .tc main_arg8) :=
  pass1 m ρ c main_arg8 (by decide) (by decide) (by decide) (fun _ => by after_results_simp <;> rfl) (fun _ => by after_results_simp <;> rfl)
theorem pass1_main_arg9 (c : Dev nD) : W9 m ρ c (Proc.devRef .tc main_arg9) = W4 m ρ c (Proc.devRef .tc main_arg9) :=
  pass1 m ρ c main_arg9 (by decide) (by decide) (by decide) (fun _ => by after_results_simp <;> rfl) (fun _ => by after_results_simp <;> rfl)
theorem pass1_main_arg10 (c : Dev nD) : W9 m ρ c (Proc.devRef .tc main_arg10) = W4 m ρ c (Proc.devRef .tc main_arg10) :=
  pass1 m ρ c main_arg10 (by decide) (by decide) (by decide) (fun _ => by after_results_simp <;> rfl) (fun _ => by after_results_simp <;> rfl)
theorem pass1_main_arg11 (c : Dev nD) : W9 m ρ c (Proc.devRef .tc main_arg11) = W4 m ρ c (Proc.devRef .tc main_arg11) :=
  pass1 m ρ c main_arg11 (by decide) (by decide) (by decide) (fun _ => by after_results_simp <;> rfl) (fun _ => by after_results_simp <;> rfl)
theorem pass1_main_arg12 (c : Dev nD) : W9 m ρ c (Proc.devRef .tc main_arg12) = W4 m ρ c (Proc.devRef .tc main_arg12) :=
  pass1 m ρ c main_arg12 (by decide) (by decide) (by decide) (fun _ => by after_results_simp <;> rfl) (fun _ => by after_results_simp <;> rfl)
theorem pass1_main_arg13 (c : Dev nD) : W9 m ρ c (Proc.devRef .tc main_arg13) = W4 m ρ c (Proc.devRef .tc main_arg13) :=
  pass1 m ρ c main_arg13 (by decide) (by decide) (by decide) (fun _ => by after_results_simp <;> rfl) (fun _ => by after_results_simp <;> rfl)
theorem pass1_main_arg14 (c : Dev nD) : W9 m ρ c (Proc.devRef .tc main_arg14) = W4 m ρ c (Proc.devRef .tc main_arg14) :=
  pass1 m ρ c main_arg14 (by decide) (by decide) (by decide) (fun _ => by after_results_simp <;> rfl) (fun _ => by after_results_simp <;> rfl)
theorem pass1_main_v1 (c : Dev nD) : W9 m ρ c (Proc.devRef .tc main_v1) = W4 m ρ c (Proc.devRef .tc main_v1) :=
  pass1 m ρ c main_v1 (by decide) (by decide) (by decide) (fun _ => by after_results_simp <;> rfl) (fun _ => by after_results_simp <;> rfl)
theorem pass1_main_v3 (c : Dev nD) : W9 m ρ c (Proc.devRef .tc main_v3) = W4 m ρ c (Proc.devRef .tc main_v3) :=
  pass1 m ρ c main_v3 (by decide) (by decide) (by decide) (fun _ => by after_results_simp <;> rfl) (fun _ => by after_results_simp <;> rfl)
theorem pass1_main_v15 (c : Dev nD) : W9 m ρ c (Proc.devRef .tc main_v15) = W4 m ρ c (Proc.devRef .tc main_v15) :=
  pass1 m ρ c main_v15 (by decide) (by decide) (by decide) (fun _ => by after_results_simp <;> rfl) (fun _ => by after_results_simp <;> rfl)
theorem pass1_main_v20 (c : Dev nD) : W9 m ρ c (Proc.devRef .tc main_v20) = W4 m ρ c (Proc.devRef .tc main_v20) :=
  pass1 m ρ c main_v20 (by decide) (by decide) (by decide) (fun _ => by after_results_simp <;> rfl) (fun _ => by after_results_simp <;> rfl)

/-- A buffer that no segment of layer 2 writes holds at the layer's exit what it held at its entry. -/
theorem pass2 (c : Dev nD) (b : Ref sig .tc) (h0 : ∀ w, Pipeline.arrRef spec3 w ≠ b) (h1 : ∀ w, Pipeline.arrRef spec4 w ≠ b)
    (h2 : ∀ w, Pipeline.arrRef spec5 w ≠ b)
    (e1 : ∀ Wx : Valuation τ sig (Elt Ideal), StableHlo.after (hostOps4 (F := Ideal)) Wx (Proc.devRef .tc b) = Wx (Proc.devRef .tc b))
    (e2 : ∀ Wx : Valuation τ sig (Elt Ideal), StableHlo.after (hostOps5 (F := Ideal)) Wx (Proc.devRef .tc b) = Wx (Proc.devRef .tc b)) :
    W14 m ρ c (Proc.devRef .tc b) = W9 m ρ c (Proc.devRef .tc b) :=
  (W14_of_ne m ρ c b h2).trans ((e2 (W12 m ρ c)).trans ((W12_of_ne m ρ c b h1).trans ((e1 (W10 m ρ c)).trans (W10_of_ne m ρ c b h0))))
theorem pass2_main_arg11 (c : Dev nD) : W14 m ρ c (Proc.devRef .tc main_arg11) = W9 m ρ c (Proc.devRef .tc main_arg11) :=
  pass2 m ρ c main_arg11 (by decide) (by decide) (by decide) (fun _ => by after_results_simp <;> rfl) (fun _ => by after_results_simp <;> rfl)
theorem pass2_main_arg12 (c : Dev nD) : W14 m ρ c (Proc.devRef .tc main_arg12) = W9 m ρ c (Proc.devRef .tc main_arg12) :=
  pass2 m ρ c main_arg12 (by decide) (by decide) (by decide) (fun _ => by after_results_simp <;> rfl) (fun _ => by after_results_simp <;> rfl)
theorem pass2_main_arg13 (c : Dev nD) : W14 m ρ c (Proc.devRef .tc main_arg13) = W9 m ρ c (Proc.devRef .tc main_arg13) :=
  pass2 m ρ c main_arg13 (by decide) (by decide) (by decide) (fun _ => by after_results_simp <;> rfl) (fun _ => by after_results_simp <;> rfl)
theorem pass2_main_arg14 (c : Dev nD) : W14 m ρ c (Proc.devRef .tc main_arg14) = W9 m ρ c (Proc.devRef .tc main_arg14) :=
  pass2 m ρ c main_arg14 (by decide) (by decide) (by decide) (fun _ => by after_results_simp <;> rfl) (fun _ => by after_results_simp <;> rfl)
theorem pass2_main_v1 (c : Dev nD) : W14 m ρ c (Proc.devRef .tc main_v1) = W9 m ρ c (Proc.devRef .tc main_v1) :=
  pass2 m ρ c main_v1 (by decide) (by decide) (by decide) (fun _ => by after_results_simp <;> rfl) (fun _ => by after_results_simp <;> rfl)
theorem pass2_main_v3 (c : Dev nD) : W14 m ρ c (Proc.devRef .tc main_v3) = W9 m ρ c (Proc.devRef .tc main_v3) :=
  pass2 m ρ c main_v3 (by decide) (by decide) (by decide) (fun _ => by after_results_simp <;> rfl) (fun _ => by after_results_simp <;> rfl)
theorem pass2_main_v15 (c : Dev nD) : W14 m ρ c (Proc.devRef .tc main_v15) = W9 m ρ c (Proc.devRef .tc main_v15) :=
  pass2 m ρ c main_v15 (by decide) (by decide) (by decide) (fun _ => by after_results_simp <;> rfl) (fun _ => by after_results_simp <;> rfl)
theorem pass2_main_v20 (c : Dev nD) : W14 m ρ c (Proc.devRef .tc main_v20) = W9 m ρ c (Proc.devRef .tc main_v20) :=
  pass2 m ρ c main_v20 (by decide) (by decide) (by decide) (fun _ => by after_results_simp <;> rfl) (fun _ => by after_results_simp <;> rfl)

/-! ## The head: the contents at the first region's entry, from the launch memory -/

theorem head_src (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_v1) = srcK (Wx (Proc.devRef .tc main_arg0)) := by
  after_results_simp <;> rfl
theorem head_edg (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_v3) = edgK (Wx (Proc.devRef .tc main_arg0)) := by
  after_results_simp <;> rfl
/-- The two later stretches of the head leave the inverse degrees as the second stretch wrote them. -/
theorem dinv_a (Wy : Valuation τ sig (Elt Ideal)) :
    StableHlo.after (hostOps0_3 (F := Ideal)) (StableHlo.after (hostOps0_2 (F := Ideal)) Wy) (Proc.devRef .tc main_v15) = Wy (Proc.devRef .tc main_v15) := by
  after_results_simp <;> rfl
theorem dinv_b (Wz : Valuation τ sig (Elt Ideal)) :
    StableHlo.after (hostOps0_1 (F := Ideal)) Wz (Proc.devRef .tc main_v15)
      = select (Wz (Proc.devRef .tc main_v12)) (Wz (Proc.devRef .tc main_v14)) (broadcastInDim S100000 ![] bcast_S_S100000 (id (Wz (Proc.devRef .tc main_cst_4)))) := by
  after_results_simp <;> rfl
theorem dinv_c12 (Wx : Valuation τ sig (Elt Ideal)) :
    StableHlo.after (hostOps0 (F := Ideal)) Wx (Proc.devRef .tc main_v12)
      = cmpf .ogt (degNK (srcK (Wx (Proc.devRef .tc main_arg0)))) (broadcastInDim S100000 ![] bcast_S_S100000 (constant (F := Ideal) S_ .f32 0x00000000#32)) := by
  after_results_simp <;> rfl
theorem dinv_c14 (Wx : Valuation τ sig (Elt Ideal)) :
    StableHlo.after (hostOps0 (F := Ideal)) Wx (Proc.devRef .tc main_v14)
      = Host.divf (broadcastInDim S100000 ![] bcast_S_S100000 (constant (F := Ideal) S_ .f32 0x3F800000#32)) (degNK (srcK (Wx (Proc.devRef .tc main_arg0)))) := by
  after_results_simp <;> rfl
theorem dinv_c4 (Wx : Valuation τ sig (Elt Ideal)) :
    StableHlo.after (hostOps0 (F := Ideal)) Wx (Proc.devRef .tc main_cst_4) = constant (F := Ideal) S_ .f32 0x00000000#32 := by
  after_results_simp <;> rfl
theorem head_dinv (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_v15) = dinvK (srcK (Wx (Proc.devRef .tc main_arg0))) := by
  rw [dinv_a, dinv_b, dinv_c12, dinv_c14, dinv_c4]
  rfl
theorem binv_b (Wy : Valuation τ sig (Elt Ideal)) :
    StableHlo.after (hostOps0_3 (F := Ideal)) Wy (Proc.devRef .tc main_v20)
      = select (Wy (Proc.devRef .tc main_v17)) (Wy (Proc.devRef .tc main_v19)) (broadcastInDim S20000 ![] bcast_S_S20000 (id (Wy (Proc.devRef .tc main_cst_7)))) := by
  after_results_simp <;> rfl
theorem binv_c17 (Wz : Valuation τ sig (Elt Ideal)) :
    StableHlo.after (hostOps0_2 (F := Ideal)) Wz (Proc.devRef .tc main_v17)
      = cmpf .ogt (Wz (Proc.devRef .tc main_v10)) (broadcastInDim S20000 ![] bcast_S_S20000 (constant (F := Ideal) S_ .f32 0x00000000#32)) := by
  after_results_simp <;> rfl
theorem binv_c19 (Wz : Valuation τ sig (Elt Ideal)) :
    StableHlo.after (hostOps0_2 (F := Ideal)) Wz (Proc.devRef .tc main_v19)
      = Host.divf (broadcastInDim S20000 ![] bcast_S_S20000 (constant (F := Ideal) S_ .f32 0x3F800000#32)) (Wz (Proc.devRef .tc main_v10)) := by
  after_results_simp <;> rfl
theorem binv_c7 (Wz : Valuation τ sig (Elt Ideal)) :
    StableHlo.after (hostOps0_2 (F := Ideal)) Wz (Proc.devRef .tc main_cst_7) = constant (F := Ideal) S_ .f32 0x00000000#32 := by
  after_results_simp <;> rfl
theorem binv_d (Wu : Valuation τ sig (Elt Ideal)) :
    StableHlo.after (hostOps0_1 (F := Ideal)) Wu (Proc.devRef .tc main_v10) = Wu (Proc.devRef .tc main_v10) := by
  after_results_simp <;> rfl
theorem binv_e (Wx : Valuation τ sig (Elt Ideal)) :
    StableHlo.after (hostOps0 (F := Ideal)) Wx (Proc.devRef .tc main_v10) = degEK (edgK (Wx (Proc.devRef .tc main_arg0))) := by
  after_results_simp <;> rfl
theorem head_binv (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_v20) = binvK (edgK (Wx (Proc.devRef .tc main_arg0))) := by
  rw [binv_b, binv_c17, binv_c19, binv_c7, binv_d, binv_e]
  rfl
theorem head_main_arg1 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg1) = Wx (Proc.devRef .tc main_arg1) := by
  after_results_simp <;> rfl
theorem head_main_arg3 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg3) = Wx (Proc.devRef .tc main_arg3) := by
  after_results_simp <;> rfl
theorem head_main_arg4 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg4) = Wx (Proc.devRef .tc main_arg4) := by
  after_results_simp <;> rfl
theorem head_main_arg5 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg5) = Wx (Proc.devRef .tc main_arg5) := by
  after_results_simp <;> rfl
theorem head_main_arg6 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg6) = Wx (Proc.devRef .tc main_arg6) := by
  after_results_simp <;> rfl
theorem head_main_arg7 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg7) = Wx (Proc.devRef .tc main_arg7) := by
  after_results_simp <;> rfl
theorem head_main_arg8 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg8) = Wx (Proc.devRef .tc main_arg8) := by
  after_results_simp <;> rfl
theorem head_main_arg9 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg9) = Wx (Proc.devRef .tc main_arg9) := by
  after_results_simp <;> rfl
theorem head_main_arg10 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg10) = Wx (Proc.devRef .tc main_arg10) := by
  after_results_simp <;> rfl
theorem head_main_arg11 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg11) = Wx (Proc.devRef .tc main_arg11) := by
  after_results_simp <;> rfl
theorem head_main_arg12 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg12) = Wx (Proc.devRef .tc main_arg12) := by
  after_results_simp <;> rfl
theorem head_main_arg13 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg13) = Wx (Proc.devRef .tc main_arg13) := by
  after_results_simp <;> rfl
theorem head_main_arg14 (Wx : Valuation τ sig (Elt Ideal)) :
    StableHlo.after (hostOps0_3 (F := Ideal)) (StableHlo.after (hostOps0_2 (F := Ideal)) (StableHlo.after (hostOps0_1 (F := Ideal)) (StableHlo.after (hostOps0 (F := Ideal)) Wx))) (Proc.devRef .tc main_arg14) = Wx (Proc.devRef .tc main_arg14) := by
  after_results_simp <;> rfl

theorem W4_v1 (c : Dev nD) : W4 m ρ c (Proc.devRef .tc main_v1) = srcK (m ((c : Thread nD τ).loc main_arg0)) := head_src (W0 m ρ c)
theorem W4_v3 (c : Dev nD) : W4 m ρ c (Proc.devRef .tc main_v3) = edgK (m ((c : Thread nD τ).loc main_arg0)) := head_edg (W0 m ρ c)
theorem W4_v15 (c : Dev nD) : W4 m ρ c (Proc.devRef .tc main_v15) = dinvK (srcK (m ((c : Thread nD τ).loc main_arg0))) := head_dinv (W0 m ρ c)
theorem W4_v20 (c : Dev nD) : W4 m ρ c (Proc.devRef .tc main_v20) = binvK (edgK (m ((c : Thread nD τ).loc main_arg0))) := head_binv (W0 m ρ c)
theorem W4_main_arg1 (c : Dev nD) : W4 m ρ c (Proc.devRef .tc main_arg1) = m ((c : Thread nD τ).loc main_arg1) := head_main_arg1 (W0 m ρ c)
theorem W4_main_arg3 (c : Dev nD) : W4 m ρ c (Proc.devRef .tc main_arg3) = m ((c : Thread nD τ).loc main_arg3) := head_main_arg3 (W0 m ρ c)
theorem W4_main_arg4 (c : Dev nD) : W4 m ρ c (Proc.devRef .tc main_arg4) = m ((c : Thread nD τ).loc main_arg4) := head_main_arg4 (W0 m ρ c)
theorem W4_main_arg5 (c : Dev nD) : W4 m ρ c (Proc.devRef .tc main_arg5) = m ((c : Thread nD τ).loc main_arg5) := head_main_arg5 (W0 m ρ c)
theorem W4_main_arg6 (c : Dev nD) : W4 m ρ c (Proc.devRef .tc main_arg6) = m ((c : Thread nD τ).loc main_arg6) := head_main_arg6 (W0 m ρ c)
theorem W4_main_arg7 (c : Dev nD) : W4 m ρ c (Proc.devRef .tc main_arg7) = m ((c : Thread nD τ).loc main_arg7) := head_main_arg7 (W0 m ρ c)
theorem W4_main_arg8 (c : Dev nD) : W4 m ρ c (Proc.devRef .tc main_arg8) = m ((c : Thread nD τ).loc main_arg8) := head_main_arg8 (W0 m ρ c)
theorem W4_main_arg9 (c : Dev nD) : W4 m ρ c (Proc.devRef .tc main_arg9) = m ((c : Thread nD τ).loc main_arg9) := head_main_arg9 (W0 m ρ c)
theorem W4_main_arg10 (c : Dev nD) : W4 m ρ c (Proc.devRef .tc main_arg10) = m ((c : Thread nD τ).loc main_arg10) := head_main_arg10 (W0 m ρ c)
theorem W4_main_arg11 (c : Dev nD) : W4 m ρ c (Proc.devRef .tc main_arg11) = m ((c : Thread nD τ).loc main_arg11) := head_main_arg11 (W0 m ρ c)
theorem W4_main_arg12 (c : Dev nD) : W4 m ρ c (Proc.devRef .tc main_arg12) = m ((c : Thread nD τ).loc main_arg12) := head_main_arg12 (W0 m ρ c)
theorem W4_main_arg13 (c : Dev nD) : W4 m ρ c (Proc.devRef .tc main_arg13) = m ((c : Thread nD τ).loc main_arg13) := head_main_arg13 (W0 m ρ c)
theorem W4_main_arg14 (c : Dev nD) : W4 m ρ c (Proc.devRef .tc main_arg14) = m ((c : Thread nD τ).loc main_arg14) := head_main_arg14 (W0 m ρ c)

/-! ## The result array at the last boundary -/

/-- The result array at the last boundary is the three layers applied in turn to the launch contents of the arguments. -/
theorem value (c : Dev nD) : W19 m ρ c (Proc.devRef .tc main_v152)
    = netK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [layer3 m ρ c, layer2 m ρ c,
    pass2_main_arg11 m ρ c, pass2_main_arg12 m ρ c, pass2_main_arg13 m ρ c, pass2_main_arg14 m ρ c,
    pass2_main_v1 m ρ c, pass2_main_v3 m ρ c, pass2_main_v15 m ρ c, pass2_main_v20 m ρ c,
    layer1 m ρ c,
    pass1_main_arg7 m ρ c, pass1_main_arg8 m ρ c, pass1_main_arg9 m ρ c, pass1_main_arg10 m ρ c,
    pass1_main_arg11 m ρ c, pass1_main_arg12 m ρ c, pass1_main_arg13 m ρ c, pass1_main_arg14 m ρ c,
    pass1_main_v1 m ρ c, pass1_main_v3 m ρ c, pass1_main_v15 m ρ c, pass1_main_v20 m ρ c,
    W4_v1 m ρ c, W4_v3 m ρ c, W4_v15 m ρ c, W4_v20 m ρ c,
    W4_main_arg1 m ρ c, W4_main_arg3 m ρ c, W4_main_arg4 m ρ c, W4_main_arg5 m ρ c, W4_main_arg6 m ρ c, W4_main_arg7 m ρ c, W4_main_arg8 m ρ c, W4_main_arg9 m ρ c, W4_main_arg10 m ρ c, W4_main_arg11 m ρ c, W4_main_arg12 m ρ c, W4_main_arg13 m ρ c, W4_main_arg14 m ρ c]
  rfl

end Cert.KernelIdeal.KTrace

end
-- ==== Proof.RefValue.lean ====
/-
  The reference's run, read back: every weakly fair execution of the reference's @main terminates, nothing faulting,
  with its result array holding the last operation's stage of the launch contents of the arguments, and the argument
  arrays as launched. A host program's buffer after its operations is the composition of the operations that write it,
  each operation's result a function of its operands' contents; composing the 301 operations in program order and
  reading the result buffer gives the stage of the last one.
-/
import proofs.«125626_j17463337025614_1_alg».proof.Proof.RefRunP
import proofs.«125626_j17463337025614_1_alg».proof.Proof.RefReadP
import Idealize.ShloMosaic.Lib.StableHlo.Run

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 120400000 in
/-- The result buffer after the 301 operations is the last stage of the arguments' contents. -/
theorem after_result (W : Valuation τ sig (Elt F)) :
    after (ops (F := F)) W (Proc.devRef .tc main_v222)
      = val_main_v222 (F := F) (W (Proc.devRef .tc main_arg0)) (W (Proc.devRef .tc main_arg1)) (W (Proc.devRef .tc main_arg3))
          (W (Proc.devRef .tc main_arg4)) (W (Proc.devRef .tc main_arg5)) (W (Proc.devRef .tc main_arg6)) (W (Proc.devRef .tc main_arg7))
          (W (Proc.devRef .tc main_arg8)) (W (Proc.devRef .tc main_arg9)) (W (Proc.devRef .tc main_arg10)) (W (Proc.devRef .tc main_arg11))
          (W (Proc.devRef .tc main_arg12)) (W (Proc.devRef .tc main_arg13)) (W (Proc.devRef .tc main_arg14)) := by
  after_results_simp <;> rfl

set_option maxRecDepth 8192 in
set_option maxHeartbeats 120400000 in
/-- On every device, from any memory with zero counters: every weakly fair execution of @main terminates with the
    result at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v222) = val_main_v222 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v222).trans (after_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

end Cert.ReferenceIdeal.RefValue

end
-- ==== Proof.KLaw.lean ====
/-
  One layer with its bias and statistics as vectors, and why the row spelling computes the same array.

  A [128] vector recast as a [1,128] row reads at (0, q) as the vector at q, so adding a bias row is adding the bias
  vector, and the rows of statistics are the vectors. The normalisation multiplies by the reciprocal square root of
  variance + ε where the other spelling divides by its square root; the two agree wherever variance + ε is positive.
  Here it always is: a column variance is the column sum of products d · d, each at least 0 on the extended reals
  (0 ≤ x · x also at ±∞), divided by the positive real 100000, hence at least 0, and ε is a positive real.
-/
import proofs.«125626_j17463337025614_1_alg».proof.Proof.KChain
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.KLaw

open Cert.KernelIdeal Cert.KernelIdeal.Facts₀ Cert.KernelIdeal.KChain Cert.Spec Idealize.ShloMosaic Idealize.ShloMosaic.TcCoe Idealize.ShloMosaic.ValueIdx

/-! ## Constants -/

/-- The word 0x47C35000 denotes 100000. -/
theorem ofBits_1e5 : Ideal.ofBits .f32 0x47C35000#32 = ((100000 : ℝ) : EReal) := by
  simp [Ideal.ofBits, Ideal.ieee, -EReal.coe_mul]; norm_num

/-- ε denotes the real 10995116 / 2^40. -/
theorem epsBN_val : epsBN = ((10995116 / 1099511627776 : ℝ) : EReal) := by
  unfold epsBN
  simp [Ideal.ofBits, Ideal.ieee, -EReal.coe_mul]; norm_num

theorem epsBN_pos : (0 : EReal) < epsBN := by
  rw [epsBN_val]; exact_mod_cast (by norm_num : (0 : ℝ) < 10995116 / 1099511627776)

/-- On the extended reals a square is at least 0, at the infinities too. -/
theorem mul_self_nonneg' (x : EReal) : 0 ≤ x * x := by
  rcases le_total 0 x with h | h
  · exact mul_nonneg h h
  · have e : x * x = (-x) * (-x) := by rw [neg_mul_neg]
    rw [e]; exact mul_nonneg (EReal.neg_nonneg.mpr h) (EReal.neg_nonneg.mpr h)

/-! ## Rows and vectors -/

/-- A [128] vector recast as a [1,128] row, read at (0, q). -/
theorem rowK_apply (v : (⟨S128, .f32⟩ : BufTy).Contents (Elt Ideal)) (q : Fin 128) :
    rowK v (ix2 (0 : Fin 1) q) = v (ix1 q) := by
  unfold rowK
  exact shapeCast_a_1a_apply v _ 0 q

/-- Adding the bias as a row is adding it as a vector. -/
theorem reluRow_rowK (a : (⟨S100000x128, .f32⟩ : BufTy).Contents (Elt Ideal)) (b : (⟨S128, .f32⟩ : BufTy).Contents (Elt Ideal)) :
    reluRow a (rowK b) = reluVec a b := by
  funext i
  obtain ⟨p, q, rfl⟩ : ∃ (p : Fin 100000) (q : Fin 128), i = ix2 p q := ⟨i 0, i 1, eq_ix2 i⟩
  show max (a (ix2 p q) + rowK b (ix2 (0 : Fin 1) q)) 0 = max (a (ix2 p q) + b (ix1 q)) 0
  rw [rowK_apply]

/-- The two normalisations agree where variance + ε is positive. -/
theorem bnRow_rowK (y : (⟨S100000x128, .f32⟩ : BufTy).Contents (Elt Ideal)) (mean var g beta : (⟨S128, .f32⟩ : BufTy).Contents (Elt Ideal))
    (h : ∀ q : Fin 128, 0 < var (ix1 q) + epsBN) :
    bnRow epsBN y (rowK mean) (rowK var) (rowK g) (rowK beta) = bnVec epsBN y mean var g beta := by
  funext i
  obtain ⟨p, q, rfl⟩ : ∃ (p : Fin 100000) (q : Fin 128), i = ix2 p q := ⟨i 0, i 1, eq_ix2 i⟩
  show rowK g (ix2 (0 : Fin 1) q) * (y (ix2 p q) - rowK mean (ix2 (0 : Fin 1) q))
        * Ideal.rsqrt (rowK var (ix2 (0 : Fin 1) q) + epsBN) + rowK beta (ix2 (0 : Fin 1) q)
      = Ideal.div (g (ix1 q) * (y (ix2 p q) - mean (ix1 q))) (Ideal.sqrt (var (ix1 q) + epsBN)) + beta (ix1 q)
  rw [rowK_apply, rowK_apply, rowK_apply, rowK_apply, mul_rsqrt_eq_div_sqrt _ _ (h q)]

/-! ## The variance is at least 0 -/

theorem varK_nonneg (y : (⟨S100000x128, .f32⟩ : BufTy).Contents (Elt Ideal)) (j : S128.Idx) : 0 ≤ varK y j := by
  unfold varK
  generalize devK y = dv
  show (0 : EReal) ≤ FloatOps.hostDivf
      (Host.reduceAdd (mulf dv dv) (constant S_ .f32 0x00000000#32) reducesTo_S100000x128_S128_d0 h_S_ j)
      (broadcastInDim S128 ![] bcast_S_S128 (constant (F := Ideal) S_ .f32 0x47C35000#32) j)
  rw [broadcastInDim_apply _ bcast_S_S128 (constant (F := Ideal) S_ .f32 0x47C35000#32) j (fun a => a.elim0) (fun a => a.elim0)]
  simp only [Host.reduceAdd, Ideal.hostReduceAdd_def]
  rw [Ideal.hostReduceAdd_single reducesTo_S100000x128_S128_d0 (by decide)]
  show (0 : EReal) ≤ Ideal.div (Ideal.ofBits .f32 0x00000000#32 + ∑ k, _) (Ideal.ofBits .f32 0x47C35000#32)
  rw [Ideal.ofBits_zero_f32, zero_add, ofBits_1e5, Ideal.div_coe (by norm_num : (100000 : ℝ) ≠ 0)]
  refine mul_nonneg (Finset.sum_nonneg fun k _ => ?_) (by exact_mod_cast (by norm_num : (0 : ℝ) ≤ 1 / 100000))
  exact mul_self_nonneg' _

theorem varK_pos (y : (⟨S100000x128, .f32⟩ : BufTy).Contents (Elt Ideal)) (q : Fin 128) : 0 < varK y (ix1 q) + epsBN :=
  lt_of_lt_of_le epsBN_pos (le_add_of_nonneg_left (varK_nonneg y (ix1 q)))

/-! ## One layer, vectors throughout -/

/-- One layer with the bias, the statistics and the affine pair as vectors and the quotient by the square root. -/
def layerV (x : (⟨S100000x128, .f32⟩ : BufTy).Contents (Elt Ideal)) (w : (⟨S128x128, .f32⟩ : BufTy).Contents (Elt Ideal))
    (b g beta : (⟨S128, .f32⟩ : BufTy).Contents (Elt Ideal)) (src edg : (⟨S600000, .i32⟩ : BufTy).Contents (Elt Ideal))
    (dinv : (⟨S100000, .f32⟩ : BufTy).Contents (Elt Ideal)) (binv : (⟨S20000, .f32⟩ : BufTy).Contents (Elt Ideal)) :
    (⟨S100000x128, .f32⟩ : BufTy).Contents (Elt Ideal) :=
  bnVec epsBN (reluVec (graphK (F := Ideal) (mmS x w) src edg dinv binv) b)
    (meanK (F := Ideal) (reluVec (graphK (F := Ideal) (mmS x w) src edg dinv binv) b))
    (varK (F := Ideal) (reluVec (graphK (F := Ideal) (mmS x w) src edg dinv binv) b)) g beta

theorem layerK_eq_layerV (x : (⟨S100000x128, .f32⟩ : BufTy).Contents (Elt Ideal)) (w : (⟨S128x128, .f32⟩ : BufTy).Contents (Elt Ideal))
    (b g beta : (⟨S128, .f32⟩ : BufTy).Contents (Elt Ideal)) (src edg : (⟨S600000, .i32⟩ : BufTy).Contents (Elt Ideal))
    (dinv : (⟨S100000, .f32⟩ : BufTy).Contents (Elt Ideal)) (binv : (⟨S20000, .f32⟩ : BufTy).Contents (Elt Ideal)) :
    layerK x w b g beta src edg dinv binv = layerV x w b g beta src edg dinv binv := by
  unfold layerK layerV yK
  rw [reluRow_rowK, bnRow_rowK _ _ _ _ _ (varK_pos _)]

end Cert.KernelIdeal.KLaw

end
-- ==== Proof.RefStages.lean ====
/-
  The reference program's dense stages, one layer at a time, as the specification's whole-array functions.

  Each layer of the reference is a product with a weight matrix, a graph aggregation, a bias added and a maximum with
  zero, and a normalisation by the column mean and the column variance. Read index by index:

    the product                      is  mmS   (the sum over the contracted axis),
    the bias and the maximum         is  reluVec of the aggregated array,
    the normalisation                is  bnVec  of the rectified array, its column mean and its column variance.

  Every statement is an equality of functions of the argument arrays on the extended reals; no law of arithmetic is
  used, only the reading of each broadcast at an index.
-/
import proofs.«125626_j17463337025614_1_alg».proof.Proof.RefReadP
import proofs.«125626_j17463337025614_1_alg».proof.Proof.Spec

noncomputable section

open scoped BigOperators

namespace Cert.ReferenceIdeal.RefStages

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- An array of node features, a weight matrix, a per-feature vector, the edge list: the argument types. -/
abbrev ANK := (⟨S100000x128, .f32⟩ : BufTy).Contents (Elt Ideal)
abbrev AKK := (⟨S128x128, .f32⟩ : BufTy).Contents (Elt Ideal)
abbrev AV := (⟨S128, .f32⟩ : BufTy).Contents (Elt Ideal)
abbrev AE := (⟨S2x600000, .i32⟩ : BufTy).Contents (Elt Ideal)

/-! ## Layer 1 -/

/-- The first product is the sum over the contracted axis. -/
theorem mm1 (x1 : ANK) (x3 : AKK) : val_main_v4 (F := Ideal) x1 x3 = Cert.Spec.mmS x1 x3 := by
  funext i
  rw [val_main_v4_apply]
  unfold Cert.Spec.mmS
  refine Finset.sum_congr rfl fun k _ => ?_
  have el : lidx_main_v4 i k = ix2 (i 0) k :=
    funext fun a => Fin.ext (by match a with | ⟨0, _⟩ => rfl | ⟨1, _⟩ => rfl)
  have er : ridx_main_v4 i k = ix2 k (i 1) :=
    funext fun a => Fin.ext (by match a with | ⟨0, _⟩ => rfl | ⟨1, _⟩ => rfl)
  exact congrArg₂ (· * ·) (congrArg _ el) (congrArg _ er)

/-- The first bias broadcast over the rows and the maximum with zero. -/
theorem relu1 (x0 : AE) (x1 : ANK) (x3 : AKK) (x4 : AV) :
    val_main_v51 (F := Ideal) x0 x1 x3 x4 = Cert.Spec.reluVec (val_main_v47 (F := Ideal) x0 x1 x3) x4 := by
  funext i
  have eb : idx_main_v48 (idx_main_v49 i) = ix1 (i 1) :=
    funext fun a => Fin.ext (by match a with | ⟨0, _⟩ => rfl)
  rw [val_main_v51_apply, val_main_v50_apply, val_main_v49_apply, val_main_v48_apply, val_main_call2_v0_apply,
    val_main_call2_cst_apply]
  generalize val_main_v47 (F := Ideal) x0 x1 x3 = a
  simp only [eb, Ideal.maximumf_def, Ideal.addf_def, Ideal.ofBits_def, Ideal.ofBits_zero_f32]
  unfold Cert.Spec.reluVec
  rfl

/-- The first normalisation by the column mean and the column variance. -/
theorem bn1 (x0 : AE) (x1 : ANK) (x3 : AKK) (x4 x5 x6 : AV) :
    val_main_v76 (F := Ideal) x0 x1 x3 x4 x5 x6
      = Cert.Spec.bnVec Cert.Spec.epsBN (val_main_v51 (F := Ideal) x0 x1 x3 x4)
          (val_main_v54 (F := Ideal) x0 x1 x3 x4)
          (val_main_v61 (F := Ideal) x0 x1 x3 x4) x5 x6 := by
  funext i
  have eg : idx_main_v65 (idx_main_v66 i) = ix1 (i 1) :=
    funext fun a => Fin.ext (by match a with | ⟨0, _⟩ => rfl)
  have ebeta : idx_main_v74 (idx_main_v75 i) = ix1 (i 1) :=
    funext fun a => Fin.ext (by match a with | ⟨0, _⟩ => rfl)
  have em : idx_main_v62 (idx_main_v63 i) = ix1 (i 1) :=
    funext fun a => Fin.ext (by match a with | ⟨0, _⟩ => rfl)
  have es : idx_main_v71 (idx_main_v72 i) = ix1 (i 1) :=
    funext fun a => Fin.ext (by match a with | ⟨0, _⟩ => rfl)
  rw [val_main_v76_apply, val_main_v73_apply, val_main_v67_apply, val_main_v66_apply, val_main_v65_apply,
    val_main_v64_apply, val_main_v63_apply, val_main_v62_apply, val_main_v72_apply, val_main_v71_apply,
    val_main_v70_apply, val_main_v69_apply, val_main_v68_apply, val_main_cst_17_apply, val_main_v75_apply,
    val_main_v74_apply]
  generalize val_main_v51 (F := Ideal) x0 x1 x3 x4 = y
  generalize val_main_v54 (F := Ideal) x0 x1 x3 x4 = mu
  generalize val_main_v61 (F := Ideal) x0 x1 x3 x4 = va
  simp only [eg, ebeta, em, es, Ideal.addf_def, Ideal.hostDivf_def, Ideal.mulf_def, Ideal.subf_def,
    Ideal.hostUnary_sqrt_def, Ideal.ofBits_def]
  unfold Cert.Spec.bnVec Cert.Spec.epsBN
  rfl

/-! ## Layer 2 -/

/-- The second product is the sum over the contracted axis. -/
theorem mm2 (x0 : AE) (x1 : ANK) (x3 : AKK) (x4 x5 x6 : AV) (x7 : AKK) :
    val_main_v77 (F := Ideal) x0 x1 x3 x4 x5 x6 x7
      = Cert.Spec.mmS (val_main_v76 (F := Ideal) x0 x1 x3 x4 x5 x6) x7 := by
  funext i
  rw [val_main_v77_apply]
  generalize val_main_v76 (F := Ideal) x0 x1 x3 x4 x5 x6 = y
  unfold Cert.Spec.mmS
  refine Finset.sum_congr rfl fun k _ => ?_
  have el : lidx_main_v77 i k = ix2 (i 0) k :=
    funext fun a => Fin.ext (by match a with | ⟨0, _⟩ => rfl | ⟨1, _⟩ => rfl)
  have er : ridx_main_v77 i k = ix2 k (i 1) :=
    funext fun a => Fin.ext (by match a with | ⟨0, _⟩ => rfl | ⟨1, _⟩ => rfl)
  exact congrArg₂ (· * ·) (congrArg _ el) (congrArg _ er)

/-- The second bias broadcast over the rows and the maximum with zero. -/
theorem relu2 (x0 : AE) (x1 : ANK) (x3 : AKK) (x4 x5 x6 : AV) (x7 : AKK) (x8 : AV) :
    val_main_v124 (F := Ideal) x0 x1 x3 x4 x5 x6 x7 x8
      = Cert.Spec.reluVec (val_main_v120 (F := Ideal) x0 x1 x3 x4 x5 x6 x7) x8 := by
  funext i
  have eb : idx_main_v121 (idx_main_v122 i) = ix1 (i 1) :=
    funext fun a => Fin.ext (by match a with | ⟨0, _⟩ => rfl)
  rw [val_main_v124_apply, val_main_v123_apply, val_main_v122_apply, val_main_v121_apply, val_main_call5_v0_apply,
    val_main_call5_cst_apply]
  generalize val_main_v120 (F := Ideal) x0 x1 x3 x4 x5 x6 x7 = a
  simp only [eb, Ideal.maximumf_def, Ideal.addf_def, Ideal.ofBits_def, Ideal.ofBits_zero_f32]
  unfold Cert.Spec.reluVec
  rfl

/-- The second normalisation by the column mean and the column variance. -/
theorem bn2 (x0 : AE) (x1 : ANK) (x3 : AKK) (x4 x5 x6 : AV) (x7 : AKK) (x8 x9 x10 : AV) :
    val_main_v149 (F := Ideal) x0 x1 x3 x4 x5 x6 x7 x8 x9 x10
      = Cert.Spec.bnVec Cert.Spec.epsBN (val_main_v124 (F := Ideal) x0 x1 x3 x4 x5 x6 x7 x8)
          (val_main_v127 (F := Ideal) x0 x1 x3 x4 x5 x6 x7 x8)
          (val_main_v134 (F := Ideal) x0 x1 x3 x4 x5 x6 x7 x8) x9 x10 := by
  funext i
  have eg : idx_main_v138 (idx_main_v139 i) = ix1 (i 1) :=
    funext fun a => Fin.ext (by match a with | ⟨0, _⟩ => rfl)
  have ebeta : idx_main_v147 (idx_main_v148 i) = ix1 (i 1) :=
    funext fun a => Fin.ext (by match a with | ⟨0, _⟩ => rfl)
  have em : idx_main_v135 (idx_main_v136 i) = ix1 (i 1) :=
    funext fun a => Fin.ext (by match a with | ⟨0, _⟩ => rfl)
  have es : idx_main_v144 (idx_main_v145 i) = ix1 (i 1) :=
    funext fun a => Fin.ext (by match a with | ⟨0, _⟩ => rfl)
  rw [val_main_v149_apply, val_main_v146_apply, val_main_v140_apply, val_main_v139_apply, val_main_v138_apply,
    val_main_v137_apply, val_main_v136_apply, val_main_v135_apply, val_main_v145_apply, val_main_v144_apply,
    val_main_v143_apply, val_main_v142_apply, val_main_v141_apply, val_main_cst_37_apply, val_main_v148_apply,
    val_main_v147_apply]
  generalize val_main_v124 (F := Ideal) x0 x1 x3 x4 x5 x6 x7 x8 = y
  generalize val_main_v127 (F := Ideal) x0 x1 x3 x4 x5 x6 x7 x8 = mu
  generalize val_main_v134 (F := Ideal) x0 x1 x3 x4 x5 x6 x7 x8 = va
  simp only [eg, ebeta, em, es, Ideal.addf_def, Ideal.hostDivf_def, Ideal.mulf_def, Ideal.subf_def,
    Ideal.hostUnary_sqrt_def, Ideal.ofBits_def]
  unfold Cert.Spec.bnVec Cert.Spec.epsBN
  rfl

/-! ## Layer 3 -/

/-- The third product is the sum over the contracted axis. -/
theorem mm3 (x0 : AE) (x1 : ANK) (x3 : AKK) (x4 x5 x6 : AV) (x7 : AKK) (x8 x9 x10 : AV) (x11 : AKK) :
    val_main_v150 (F := Ideal) x0 x1 x3 x4 x5 x6 x7 x8 x9 x10 x11
      = Cert.Spec.mmS (val_main_v149 (F := Ideal) x0 x1 x3 x4 x5 x6 x7 x8 x9 x10) x11 := by
  funext i
  rw [val_main_v150_apply]
  generalize val_main_v149 (F := Ideal) x0 x1 x3 x4 x5 x6 x7 x8 x9 x10 = y
  unfold Cert.Spec.mmS
  refine Finset.sum_congr rfl fun k _ => ?_
  have el : lidx_main_v150 i k = ix2 (i 0) k :=
    funext fun a => Fin.ext (by match a with | ⟨0, _⟩ => rfl | ⟨1, _⟩ => rfl)
  have er : ridx_main_v150 i k = ix2 k (i 1) :=
    funext fun a => Fin.ext (by match a with | ⟨0, _⟩ => rfl | ⟨1, _⟩ => rfl)
  exact congrArg₂ (· * ·) (congrArg _ el) (congrArg _ er)

/-- The third bias broadcast over the rows and the maximum with zero. -/
theorem relu3 (x0 : AE) (x1 : ANK) (x3 : AKK) (x4 x5 x6 : AV) (x7 : AKK) (x8 x9 x10 : AV) (x11 : AKK) (x12 : AV) :
    val_main_v197 (F := Ideal) x0 x1 x3 x4 x5 x6 x7 x8 x9 x10 x11 x12
      = Cert.Spec.reluVec (val_main_v193 (F := Ideal) x0 x1 x3 x4 x5 x6 x7 x8 x9 x10 x11) x12 := by
  funext i
  have eb : idx_main_v194 (idx_main_v195 i) = ix1 (i 1) :=
    funext fun a => Fin.ext (by match a with | ⟨0, _⟩ => rfl)
  rw [val_main_v197_apply, val_main_v196_apply, val_main_v195_apply, val_main_v194_apply, val_main_call8_v0_apply,
    val_main_call8_cst_apply]
  generalize val_main_v193 (F := Ideal) x0 x1 x3 x4 x5 x6 x7 x8 x9 x10 x11 = a
  simp only [eb, Ideal.maximumf_def, Ideal.addf_def, Ideal.ofBits_def, Ideal.ofBits_zero_f32]
  unfold Cert.Spec.reluVec
  rfl

/-- The third normalisation by the column mean and the column variance. -/
theorem bn3 (x0 : AE) (x1 : ANK) (x3 : AKK) (x4 x5 x6 : AV) (x7 : AKK) (x8 x9 x10 : AV) (x11 : AKK) (x12 x13 x14 : AV) :
    val_main_v222 (F := Ideal) x0 x1 x3 x4 x5 x6 x7 x8 x9 x10 x11 x12 x13 x14
      = Cert.Spec.bnVec Cert.Spec.epsBN (val_main_v197 (F := Ideal) x0 x1 x3 x4 x5 x6 x7 x8 x9 x10 x11 x12)
          (val_main_v200 (F := Ideal) x0 x1 x3 x4 x5 x6 x7 x8 x9 x10 x11 x12)
          (val_main_v207 (F := Ideal) x0 x1 x3 x4 x5 x6 x7 x8 x9 x10 x11 x12) x13 x14 := by
  funext i
  have eg : idx_main_v211 (idx_main_v212 i) = ix1 (i 1) :=
    funext fun a => Fin.ext (by match a with | ⟨0, _⟩ => rfl)
  have ebeta : idx_main_v220 (idx_main_v221 i) = ix1 (i 1) :=
    funext fun a => Fin.ext (by match a with | ⟨0, _⟩ => rfl)
  have em : idx_main_v208 (idx_main_v209 i) = ix1 (i 1) :=
    funext fun a => Fin.ext (by match a with | ⟨0, _⟩ => rfl)
  have es : idx_main_v217 (idx_main_v218 i) = ix1 (i 1) :=
    funext fun a => Fin.ext (by match a with | ⟨0, _⟩ => rfl)
  rw [val_main_v222_apply, val_main_v219_apply, val_main_v213_apply, val_main_v212_apply, val_main_v211_apply,
    val_main_v210_apply, val_main_v209_apply, val_main_v208_apply, val_main_v218_apply, val_main_v217_apply,
    val_main_v216_apply, val_main_v215_apply, val_main_v214_apply, val_main_cst_57_apply, val_main_v221_apply,
    val_main_v220_apply]
  generalize val_main_v197 (F := Ideal) x0 x1 x3 x4 x5 x6 x7 x8 x9 x10 x11 x12 = y
  generalize val_main_v200 (F := Ideal) x0 x1 x3 x4 x5 x6 x7 x8 x9 x10 x11 x12 = mu
  generalize val_main_v207 (F := Ideal) x0 x1 x3 x4 x5 x6 x7 x8 x9 x10 x11 x12 = va
  simp only [eg, ebeta, em, es, Ideal.addf_def, Ideal.hostDivf_def, Ideal.mulf_def, Ideal.subf_def,
    Ideal.hostUnary_sqrt_def, Ideal.ofBits_def]
  unfold Cert.Spec.bnVec Cert.Spec.epsBN
  rfl

end Cert.ReferenceIdeal.RefStages

end
-- ==== Proof.Bridge.lean ====
/-
  The reference computes the same three layers.

  Stage by stage the reference's operations are the kernel program's host stages applied to the same operands: the
  node and hyperedge lists are the two rows of the incidence pairs; each layer recomputes the degrees and their
  inverses from the lists, which gives the same arrays every time; the aggregation, the column means and the column
  variances are the same compositions; the product, the biased maximum with zero and the normalisation are the three
  whole-array functions read index by index. So the reference's result is the layer function applied three times,
  which is what the kernel program's result is.
-/
import proofs.«125626_j17463337025614_1_alg».proof.Proof.KLaw
import proofs.«125626_j17463337025614_1_alg».proof.Proof.RefStages

noncomputable section

namespace Cert.Bridge

open Cert.KernelIdeal.KChain Cert.KernelIdeal.KLaw Cert.ReferenceIdeal.ReadP Cert.ReferenceIdeal.RefStages Cert.Spec
open Idealize.ShloMosaic Idealize.ShloMosaic.TcCoe

/-- The argument types: the incidence pairs, an array of node features, a weight matrix, a per-feature vector. -/
abbrev AE := (⟨Cert.KernelIdeal.S2x600000, .i32⟩ : BufTy).Contents (Elt Ideal)
abbrev ANK := (⟨Cert.KernelIdeal.S100000x128, .f32⟩ : BufTy).Contents (Elt Ideal)
abbrev AKK := (⟨Cert.KernelIdeal.S128x128, .f32⟩ : BufTy).Contents (Elt Ideal)
abbrev AV := (⟨Cert.KernelIdeal.S128, .f32⟩ : BufTy).Contents (Elt Ideal)

/-! ## The lists -/

theorem r_src (x0 : AE) : val_main_v1 (F := Ideal) x0 = srcK x0 := rfl
theorem r_edg (x0 : AE) : val_main_v3 (F := Ideal) x0 = edgK x0 := rfl

/-! ## Layer 1 of the reference -/

theorem r_dinv1 (x0 : AE) : val_main_v16 (F := Ideal) x0 = dinvK (srcK x0) := rfl
theorem r_binv1 (x0 : AE) : val_main_v21 (F := Ideal) x0 = binvK (edgK x0) := rfl
theorem r_edges1 (x0 : AE) (x1 : ANK) (x3 : AKK) : val_main_v34 (F := Ideal) x0 x1 x3 = toEdgesK (val_main_v4 (F := Ideal) x1 x3) (srcK x0) (edgK x0) (binvK (edgK x0)) := by
  unfold val_main_v34 val_main_v33 val_main_v22
  rw [r_binv1]
  rfl
theorem r_graph1 (x0 : AE) (x1 : ANK) (x3 : AKK) : val_main_v47 (F := Ideal) x0 x1 x3 = graphK (val_main_v4 (F := Ideal) x1 x3) (srcK x0) (edgK x0) (dinvK (srcK x0)) (binvK (edgK x0)) := by
  unfold val_main_v47 val_main_v46 val_main_v35 val_main_v45 val_main_v42
  rw [r_dinv1, r_edges1]
  rfl
theorem r_mean1 (x0 : AE) (x1 : ANK) (x3 : AKK) (x4 : AV) : val_main_v54 (F := Ideal) x0 x1 x3 x4 = meanK (val_main_v51 (F := Ideal) x0 x1 x3 x4) := rfl
theorem r_var1 (x0 : AE) (x1 : ANK) (x3 : AKK) (x4 : AV) : val_main_v61 (F := Ideal) x0 x1 x3 x4 = varK (val_main_v51 (F := Ideal) x0 x1 x3 x4) := by
  unfold val_main_v61 val_main_v59 val_main_v58 val_main_v57 val_main_v56 val_main_v55
  rw [r_mean1]
  rfl
/-- The reference's layer 1 is the layer function of its input and its own arguments. -/
theorem r_layer1 (x0 : AE) (x1 : ANK) (x3 : AKK) (x4 x5 x6 : AV) : val_main_v76 (F := Ideal) x0 x1 x3 x4 x5 x6 = layerV x1 x3 x4 x5 x6 (srcK x0) (edgK x0) (dinvK (srcK x0)) (binvK (edgK x0)) := by
  rw [bn1, r_mean1, r_var1, relu1, r_graph1, mm1]
  rfl

/-! ## Layer 2 of the reference -/

theorem r_dinv2 (x0 : AE) : val_main_v89 (F := Ideal) x0 = dinvK (srcK x0) := rfl
theorem r_binv2 (x0 : AE) : val_main_v94 (F := Ideal) x0 = binvK (edgK x0) := rfl
theorem r_edges2 (x0 : AE) (x1 : ANK) (x3 : AKK) (x4 x5 x6 : AV) (x7 : AKK) : val_main_v107 (F := Ideal) x0 x1 x3 x4 x5 x6 x7 = toEdgesK (val_main_v77 (F := Ideal) x0 x1 x3 x4 x5 x6 x7) (srcK x0) (edgK x0) (binvK (edgK x0)) := by
  unfold val_main_v107 val_main_v106 val_main_v95
  rw [r_binv2]
  rfl
theorem r_graph2 (x0 : AE) (x1 : ANK) (x3 : AKK) (x4 x5 x6 : AV) (x7 : AKK) : val_main_v120 (F := Ideal) x0 x1 x3 x4 x5 x6 x7 = graphK (val_main_v77 (F := Ideal) x0 x1 x3 x4 x5 x6 x7) (srcK x0) (edgK x0) (dinvK (srcK x0)) (binvK (edgK x0)) := by
  unfold val_main_v120 val_main_v119 val_main_v108 val_main_v118 val_main_v115
  rw [r_dinv2, r_edges2]
  rfl
theorem r_mean2 (x0 : AE) (x1 : ANK) (x3 : AKK) (x4 x5 x6 : AV) (x7 : AKK) (x8 : AV) : val_main_v127 (F := Ideal) x0 x1 x3 x4 x5 x6 x7 x8 = meanK (val_main_v124 (F := Ideal) x0 x1 x3 x4 x5 x6 x7 x8) := rfl
theorem r_var2 (x0 : AE) (x1 : ANK) (x3 : AKK) (x4 x5 x6 : AV) (x7 : AKK) (x8 : AV) : val_main_v134 (F := Ideal) x0 x1 x3 x4 x5 x6 x7 x8 = varK (val_main_v124 (F := Ideal) x0 x1 x3 x4 x5 x6 x7 x8) := by
  unfold val_main_v134 val_main_v132 val_main_v131 val_main_v130 val_main_v129 val_main_v128
  rw [r_mean2]
  rfl
/-- The reference's layer 2 is the layer function of its input and its own arguments. -/
theorem r_layer2 (x0 : AE) (x1 : ANK) (x3 : AKK) (x4 x5 x6 : AV) (x7 : AKK) (x8 x9 x10 : AV) : val_main_v149 (F := Ideal) x0 x1 x3 x4 x5 x6 x7 x8 x9 x10 = layerV (val_main_v76 (F := Ideal) x0 x1 x3 x4 x5 x6) x7 x8 x9 x10 (srcK x0) (edgK x0) (dinvK (srcK x0)) (binvK (edgK x0)) := by
  rw [bn2, r_mean2, r_var2, relu2, r_graph2, mm2]
  rfl

/-! ## Layer 3 of the reference -/

theorem r_dinv3 (x0 : AE) : val_main_v162 (F := Ideal) x0 = dinvK (srcK x0) := rfl
theorem r_binv3 (x0 : AE) : val_main_v167 (F := Ideal) x0 = binvK (edgK x0) := rfl
theorem r_edges3 (x0 : AE) (x1 : ANK) (x3 : AKK) (x4 x5 x6 : AV) (x7 : AKK) (x8 x9 x10 : AV) (x11 : AKK) : val_main_v180 (F := Ideal) x0 x1 x3 x4 x5 x6 x7 x8 x9 x10 x11 = toEdgesK (val_main_v150 (F := Ideal) x0 x1 x3 x4 x5 x6 x7 x8 x9 x10 x11) (srcK x0) (edgK x0) (binvK (edgK x0)) := by
  unfold val_main_v180 val_main_v179 val_main_v168
  rw [r_binv3]
  rfl
theorem r_graph3 (x0 : AE) (x1 : ANK) (x3 : AKK) (x4 x5 x6 : AV) (x7 : AKK) (x8 x9 x10 : AV) (x11 : AKK) : val_main_v193 (F := Ideal) x0 x1 x3 x4 x5 x6 x7 x8 x9 x10 x11 = graphK (val_main_v150 (F := Ideal) x0 x1 x3 x4 x5 x6 x7 x8 x9 x10 x11) (srcK x0) (edgK x0) (dinvK (srcK x0)) (binvK (edgK x0)) := by
  unfold val_main_v193 val_main_v192 val_main_v181 val_main_v191 val_main_v188
  rw [r_dinv3, r_edges3]
  rfl
theorem r_mean3 (x0 : AE) (x1 : ANK) (x3 : AKK) (x4 x5 x6 : AV) (x7 : AKK) (x8 x9 x10 : AV) (x11 : AKK) (x12 : AV) : val_main_v200 (F := Ideal) x0 x1 x3 x4 x5 x6 x7 x8 x9 x10 x11 x12 = meanK (val_main_v197 (F := Ideal) x0 x1 x3 x4 x5 x6 x7 x8 x9 x10 x11 x12) := rfl
theorem r_var3 (x0 : AE) (x1 : ANK) (x3 : AKK) (x4 x5 x6 : AV) (x7 : AKK) (x8 x9 x10 : AV) (x11 : AKK) (x12 : AV) : val_main_v207 (F := Ideal) x0 x1 x3 x4 x5 x6 x7 x8 x9 x10 x11 x12 = varK (val_main_v197 (F := Ideal) x0 x1 x3 x4 x5 x6 x7 x8 x9 x10 x11 x12) := by
  unfold val_main_v207 val_main_v205 val_main_v204 val_main_v203 val_main_v202 val_main_v201
  rw [r_mean3]
  rfl
/-- The reference's layer 3 is the layer function of its input and its own arguments. -/
theorem r_layer3 (x0 : AE) (x1 : ANK) (x3 : AKK) (x4 x5 x6 : AV) (x7 : AKK) (x8 x9 x10 : AV) (x11 : AKK) (x12 x13 x14 : AV) : val_main_v222 (F := Ideal) x0 x1 x3 x4 x5 x6 x7 x8 x9 x10 x11 x12 x13 x14 = layerV (val_main_v149 (F := Ideal) x0 x1 x3 x4 x5 x6 x7 x8 x9 x10) x11 x12 x13 x14 (srcK x0) (edgK x0) (dinvK (srcK x0)) (binvK (edgK x0)) := by
  rw [bn3, r_mean3, r_var3, relu3, r_graph3, mm3]
  rfl

/-! ## The two results -/

/-- The three layers of the kernel program and the reference's result are one function of the arguments. -/
theorem net_eq (x0 : AE) (x1 : ANK) (x3 : AKK) (x4 x5 x6 : AV) (x7 : AKK) (x8 x9 x10 : AV) (x11 : AKK) (x12 x13 x14 : AV) :
    netK x0 x1 x3 x4 x5 x6 x7 x8 x9 x10 x11 x12 x13 x14
      = val_main_v222 (F := Ideal) x0 x1 x3 x4 x5 x6 x7 x8 x9 x10 x11 x12 x13 x14 := by
  unfold netK
  rw [layerK_eq_layerV, layerK_eq_layerV, layerK_eq_layerV, ← r_layer1 x0 x1 x3 x4 x5 x6,
    ← r_layer2 x0 x1 x3 x4 x5 x6 x7 x8 x9 x10, ← r_layer3 x0 x1 x3 x4 x5 x6 x7 x8 x9 x10 x11 x12 x13 x14]

end Cert.Bridge

end
-- ==== Proof.Claims.lean ====
/-
  The five claims.

  The two kernel programs' frames are their runs over the nineteen segments. The reference's frame is its run with the
  result forgotten. The idealization rewrote nothing, so there is nothing to preserve. For the equivalence: the kernel
  program's result array ends at the three layers applied to the launch contents of its arguments (the run over the
  segments, read back layer by layer); the reference's result ends at its last stage of its own arguments, which agree
  with the kernel program's, and that stage is the same three layers (stage by stage the same host compositions, the
  product, the biased maximum with zero, and the normalisation — whose reciprocal-square-root and quotient spellings
  agree because a column variance plus ε is positive).
-/
import proofs.«125626_j17463337025614_1_alg».proof.Defs
import proofs.«125626_j17463337025614_1_alg».proof.Proof.Gen.Kernel.Frame
import proofs.«125626_j17463337025614_1_alg».proof.Proof.Gen.Pre_finite_inputs
import proofs.«125626_j17463337025614_1_alg».proof.Proof.KRun
import proofs.«125626_j17463337025614_1_alg».proof.Proof.KTrace
import proofs.«125626_j17463337025614_1_alg».proof.Proof.RefValue
import proofs.«125626_j17463337025614_1_alg».proof.Proof.Bridge

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.KChain.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KTrace.value m ρ c), (h c).2⟩) (Cert.KernelIdeal.KRun.run_value m ρ)
  · refine (θ_run Cert.ReferenceIdeal.defs _ _).mono (fun r h c => ⟨(h c).1.trans ?_, (h c).2⟩)
      (Cert.ReferenceIdeal.RefValue.run (F := Ideal) m' ρ')
    obtain ⟨a0, a1, a2, a3, a4, a5, a6, a7, a8, a9, a10, a11, a12, a13, a14⟩ := hagree c
    rw [a0, a1, a3, a4, a5, a6, a7, a8, a9, a10, a11, a12, a13, a14]
    exact (Cert.Bridge.net_eq _ _ _ _ _ _ _ _ _ _ _ _ _ _).symm

end Cert.Proof.Claims

end
-- ==== Proof.lean ====
/-
  The certificate: three layers of a hypergraph convolution network, kernel against reference, over the extended reals.

  One layer takes the node features x to  normalise (max (aggregate (x · W) + b, 0)):  a product with the layer's
  weights, an aggregation over the incidence pairs (nodes to hyperedges and back, scaled by the inverse sizes and
  inverse degrees), a bias and a maximum with zero, and a normalisation of every column by its own mean and variance
  with a scale and a shift. The kernel program runs the product, the biased maximum and the normalisation as tiled
  regions over twenty blocks of 5000 rows and leaves the aggregation and the column statistics to host operations; the
  reference is host operations throughout. At the extended reals a tiled region leaves in its output array one
  whole-array function of its inputs, the host stages of the two programs are the same compositions, and the only
  difference in the arithmetic — the kernel multiplies by the reciprocal square root of variance + ε where the
  reference divides by its square root — vanishes because a column variance is a sum of squares over a positive real,
  so variance + ε is positive (no finiteness of the inputs is needed). The claims are assembled in Proof/Claims.lean.
-/
import proofs.«125626_j17463337025614_1_alg».proof.Defs
import proofs.«125626_j17463337025614_1_alg».proof.Proof.Gen.Kernel
import proofs.«125626_j17463337025614_1_alg».proof.Proof.Gen.Kernel.Skeleton
import proofs.«125626_j17463337025614_1_alg».proof.Proof.Gen.Kernel.Launch
import proofs.«125626_j17463337025614_1_alg».proof.Proof.Gen.Kernel.Points
import proofs.«125626_j17463337025614_1_alg».proof.Proof.Gen.Kernel.Frame
import proofs.«125626_j17463337025614_1_alg».proof.Proof.Gen.KernelIdeal
import proofs.«125626_j17463337025614_1_alg».proof.Proof.Gen.KernelIdeal.Skeleton
import proofs.«125626_j17463337025614_1_alg».proof.Proof.Gen.KernelIdeal.Launch
import proofs.«125626_j17463337025614_1_alg».proof.Proof.Gen.KernelIdeal.Points
import proofs.«125626_j17463337025614_1_alg».proof.Proof.Gen.KernelIdeal.Frame
import proofs.«125626_j17463337025614_1_alg».proof.Proof.Gen.ReferenceIdeal
import proofs.«125626_j17463337025614_1_alg».proof.Proof.Gen.Pre_finite_inputs
import proofs.«125626_j17463337025614_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
